-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096 : Shape := ⟨1, ![4096]⟩
abbrev S128x512 : Shape := ⟨2, ![128, 512]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_

variable [Facts]

def fn {F : FTy → Type} [FloatOps F] (main_arg0 : FVec F S4096x128 .f32) (main_arg1 : IVec S4096 32) (main_arg2 : FVec F S128x512 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S128x512 .f32 := Host.absf main_arg2
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  main_v8
-- ==== Kernel.lean ====
abbrev S4096x128 : Shape := ⟨2, ![4096, 128]⟩
abbrev S4096 : Shape := ⟨1, ![4096]⟩
abbrev S128x512 : Shape := ⟨2, ![128, 512]⟩
abbrev S_ : Shape := ⟨0, ![]⟩
abbrev S512 : Shape := ⟨1, ![512]⟩
abbrev S1x512 : Shape := ⟨2, ![1, 512]⟩
abbrev S4096x512 : Shape := ⟨2, ![4096, 512]⟩
abbrev S4096x1 : Shape := ⟨2, ![4096, 1]⟩
abbrev S1024x128 : Shape := ⟨2, ![1024, 128]⟩
abbrev S1024x512 : Shape := ⟨2, ![1024, 512]⟩
abbrev S1024x1 : Shape := ⟨2, ![1024, 1]⟩
abbrev S1024 : Shape := ⟨1, ![1024]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 37
  | .vmem => 8
  | .smem => 0
  | _ => 0

abbrev bufTy : (tb : Table) → Fin (tcTables nBuf tb) → BufTy
  | .hbm, ⟨0, _⟩ => ⟨S4096x128, .f32⟩
  | .hbm, ⟨1, _⟩ => ⟨S4096, .i32⟩
  | .hbm, ⟨2, _⟩ => ⟨S128x512, .f32⟩
  | .hbm, ⟨3, _⟩ => ⟨S128x512, .f32⟩
  | .hbm, ⟨4, _⟩ => ⟨S_, .f32⟩
  | .hbm, ⟨5, _⟩ => ⟨S512, .f32⟩
  | .hbm, ⟨6, _⟩ => ⟨S1x512, .f32⟩
  | .hbm, ⟨7, _⟩ => ⟨S4096x512, .f32⟩
  | .hbm, ⟨8, _⟩ => ⟨S4096x1, .f32⟩
  | .hbm, ⟨9, _⟩ => ⟨S4096x1, .i32⟩
  | .hbm, ⟨10, _⟩ => ⟨S_, .i32⟩
  | .hbm, ⟨11, _⟩ => ⟨S4096x1, .i32⟩
  | .hbm, ⟨12, _⟩ => ⟨S4096x1, .i1⟩
  | .hbm, ⟨13, _⟩ => ⟨S_, .i32⟩
  | .hbm, ⟨14, _⟩ => ⟨S4096x1, .i32⟩
  | .hbm, ⟨15, _⟩ => ⟨S4096x1, .i32⟩
  | .hbm, ⟨16, _⟩ => ⟨S4096x1, .i32⟩
  | .hbm, ⟨17, _⟩ => ⟨S4096x1x1, .i32⟩
  | .hbm, ⟨18, _⟩ => ⟨S1, .i32⟩
  | .hbm, ⟨19, _⟩ => ⟨S_, .i32⟩
  | .hbm, ⟨20, _⟩ => ⟨S4096x1x1, .i32⟩
  | .hbm, ⟨21, _⟩ => ⟨S4096x1x1, .i1⟩
  | .hbm, ⟨22, _⟩ => ⟨S1x1x1, .i32⟩
  | .hbm, ⟨23, _⟩ => ⟨S4096x1x1, .i32⟩
  | .hbm, ⟨24, _⟩ => ⟨S4096x1x1, .i1⟩
  | .hbm, ⟨25, _⟩ => ⟨S4096x1x1, .i1⟩
  | .hbm, ⟨26, _⟩ => ⟨S_, .i1⟩
  | .hbm, ⟨27, _⟩ => ⟨S4096x1, .i1⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S128x512, .f32⟩
  | .local _ .vmem, ⟨3, _⟩ => ⟨S1x512, .f32⟩
  | .local _ .vmem, ⟨4, _⟩ => ⟨S1024x512, .f32⟩
  | .local _ .vmem, ⟨5, _⟩ => ⟨S1024x512, .f32⟩
  | .local _ .vmem, ⟨6, _⟩ => ⟨S1024x1, .f32⟩
  | .local _ .vmem, ⟨7, _⟩ => ⟨S1024x1, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_cst : Ref sig .tc := ⟨.hbm, 29, rfl⟩
abbrev main_call0_v14 : Ref sig .tc := ⟨.hbm, 30, rfl⟩
abbrev main_v5 : Ref sig .tc := ⟨.hbm, 31, rfl⟩
abbrev main_v6 : Ref sig .tc := ⟨.hbm, 32, rfl⟩
abbrev main_cst_0 : Ref sig .tc := ⟨.hbm, 33, rfl⟩
abbrev main_v7 : Ref sig .tc := ⟨.hbm, 34, rfl⟩
abbrev main_cst_1 : Ref sig .tc := ⟨.hbm, 35, rfl⟩
abbrev main_v8 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S128x512_S512_d0 : S128x512.ReducesTo [0] S512
  h_S_ : 0 < S_.numel
  bcast_S512_S1x512_1 : S512.BroadcastsInDim S1x512 (![1] : Fin 1 → Fin S1x512.rank)
  inb_S1024x128_S1024x128_0_0 : ∀ a, (![0, 0] : Fin 2 → Nat) a + S1024x128.size a ≤ S1024x128.size a
  h_S1024x128 : 0 < S1024x128.numel
  reduces_S1024x128_S1024 : S1024x128.Reduces [1] S1024
  shapeCasts_S1024_S1024x1 : S1024.ShapeCasts S1024x1
  inb_S128x512_S128x512_0_0 : ∀ a, (![0, 0] : Fin 2 → Nat) a + S128x512.size a ≤ S128x512.size a
  h_S128x512 : 0 < S128x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  bitsLt_bf16_f32 : FTy.bits .bf16 < FTy.bits .f32
  broadcasts_S1024x1_S1024x512 : S1024x1.Broadcasts S1024x512
  broadcasts_S1x512_S1024x512 : S1x512.Broadcasts S1024x512
  reduces_S1024x512_S1024 : S1024x512.Reduces [1] S1024
  inb_S1024x512_S1024x512_0_0 : ∀ a, (![0, 0] : Fin 2 → Nat) a + S1024x512.size a ≤ S1024x512.size a
  h_S1024x512 : 0 < S1024x512.numel
  inb_S1024x1_S1024x1_0_0 : ∀ a, (![0, 0] : Fin 2 → Nat) a + S1024x1.size a ≤ S1024x1.size a
  h_S1024x1 : 0 < S1024x1.numel
  bcast_S4096_S4096x1_0 : S4096.BroadcastsInDim S4096x1 (![0] : Fin 1 → Fin S4096x1.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  reducesTo_S4096x1_S_d0_1 : S4096x1.ReducesTo [0, 1] S_
  dot_S1024x128_S128x512_S1024x512_1_0_0_1_n_n_wf : DotDims.WF S1024x128 S128x512 S1024x512 [1] [0] [0] [1] [] []
  gather_S4096x512_S4096x1x1_S4096x1_n_1_0_0_1_2_11_wf : GatherDims.WF S4096x512 S4096x1x1 S4096x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S4096x128.size a
  hwx0_0 : ∀ i : grid0.Coords, EltTy.bits .f32 = 32 ∨ (Rect.block (s := S4096x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S4096x512.size a
  hwx0_3 : ∀ i : grid0.Coords, EltTy.bits .f32 = 32 ∨ (Rect.block (s := S4096x512) S1024x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S4096x1.size a
  hwx0_4 : ∀ i : grid0.Coords, EltTy.bits .f32 = 32 ∨ (Rect.block (s := S4096x1) S1024x1.size (cc0_transform_4 i) (hinb0_4 i)).WholeWords (EltTy.packing .f32)

variable [Facts₀]

def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def gather_S4096x512_S4096x1x1_S4096x1_n_1_0_0_1_2_11 : GatherDims S4096x512 S4096x1x1 S4096x1 where
  offsetDims := []
  collapsedSliceDims := [1]
  operandBatchingDims := [0]
  startIndicesBatchingDims := [0]
  startIndexMap := [1]
  indexVectorDim := 2
  sliceSizes := ![1, 1]
  wf := gather_S4096x512_S4096x1x1_S4096x1_n_1_0_0_1_2_11_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1024x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x128 : Shape := ⟨2, ![4096, 128]⟩
abbrev S4096 : Shape := ⟨1, ![4096]⟩
abbrev S128x512 : Shape := ⟨2, ![128, 512]⟩
abbrev S4096x128x1 : Shape := ⟨3, ![4096, 128, 1]⟩
abbrev S1x128x512 : Shape := ⟨3, ![1, 128, 512]⟩
abbrev S4096x128x512 : Shape := ⟨3, ![4096, 128, 512]⟩
abbrev S_ : Shape := ⟨0, ![]⟩
abbrev S4096x512 : Shape := ⟨2, ![4096, 512]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 59
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096, .i32⟩
  | .hbm, ⟨2, _⟩ => ⟨S128x512, .f32⟩
  | .hbm, ⟨3, _⟩ => ⟨S4096x128x1, .f32⟩
  | .hbm, ⟨4, _⟩ => ⟨S1x128x512, .f32⟩
  | .hbm, ⟨5, _⟩ => ⟨S4096x128x512, .f32⟩
  | .hbm, ⟨6, _⟩ => ⟨S4096x128x512, .f32⟩
  | .hbm, ⟨7, _⟩ => ⟨S4096x128x512, .f32⟩
  | .hbm, ⟨8, _⟩ => ⟨S_, .f32⟩
  | .hbm, ⟨9, _⟩ => ⟨S4096x128x512, .f32⟩
  | .hbm, ⟨10, _⟩ => ⟨S4096x128x512, .f32⟩
  | .hbm, ⟨11, _⟩ => ⟨S4096x128x512, .f32⟩
  | .hbm, ⟨12, _⟩ => ⟨S_, .f32⟩
  | .hbm, ⟨13, _⟩ => ⟨S4096x512, .f32⟩
  | .hbm, ⟨14, _⟩ => ⟨S4096x512, .f32⟩
  | .hbm, ⟨15, _⟩ => ⟨S4096x512, .f32⟩
  | .hbm, ⟨16, _⟩ => ⟨S_, .f32⟩
  | .hbm, ⟨17, _⟩ => ⟨S4096, .f32⟩
  | .hbm, ⟨18, _⟩ => ⟨S_, .f32⟩
  | .hbm, ⟨19, _⟩ => ⟨S4096, .f32⟩
  | .hbm, ⟨20, _⟩ => ⟨S4096, .f32⟩
  | .hbm, ⟨21, _⟩ => ⟨S4096x1, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S4096x1, .f32⟩
  | .hbm, ⟨29, _⟩ => ⟨S4096x512, .f32⟩
  | .hbm, ⟨30, _⟩ => ⟨S4096x512, .f32⟩
  | .hbm, ⟨31, _⟩ => ⟨S4096x1, .i32⟩
  | .hbm, ⟨32, _⟩ => ⟨S_, .i32⟩
  | .hbm, ⟨33, _⟩ => ⟨S4096x1, .i32⟩
  | .hbm, ⟨34, _⟩ => ⟨S4096x1, .i1⟩
  | .hbm, ⟨35, _⟩ => ⟨S_, .i32⟩
  | .hbm, ⟨36, _⟩ => ⟨S4096x1, .i32⟩
  | .hbm, ⟨37, _⟩ => ⟨S4096x1, .i32⟩
  | .hbm, ⟨38, _⟩ => ⟨S4096x1, .i32⟩
  | .hbm, ⟨39, _⟩ => ⟨S4096x1x1, .i32⟩
  | .hbm, ⟨40, _⟩ => ⟨S1, .i32⟩
  | .hbm, ⟨41, _⟩ => ⟨S_, .i32⟩
  | .hbm, ⟨42, _⟩ => ⟨S4096x1x1, .i32⟩
  | .hbm, ⟨43, _⟩ => ⟨S4096x1x1, .i1⟩
  | .hbm, ⟨44, _⟩ => ⟨S1x1x1, .i32⟩
  | .hbm, ⟨45, _⟩ => ⟨S4096x1x1, .i32⟩
  | .hbm, ⟨46, _⟩ => ⟨S4096x1x1, .i1⟩
  | .hbm, ⟨47, _⟩ => ⟨S4096x1x1, .i1⟩
  | .hbm, ⟨48, _⟩ => ⟨S_, .i1⟩
  | .hbm, ⟨49, _⟩ => ⟨S4096x1, .i1⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_cst : Ref sig .tc := ⟨.hbm, 16, rfl⟩
abbrev main_call0_v0 : Ref sig .tc := ⟨.hbm, 17, rfl⟩
abbrev main_call0_cst_0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_cst_1 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_v11 : Ref sig .tc := ⟨.hbm, 30, rfl⟩
abbrev main_v12 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_cst : Ref sig .tc := ⟨.hbm, 51, rfl⟩
abbrev main_call1_v14 : Ref sig .tc := ⟨.hbm, 52, rfl⟩
abbrev main_v13 : Ref sig .tc := ⟨.hbm, 53, rfl⟩
abbrev main_cst_1 : Ref sig .tc := ⟨.hbm, 54, rfl⟩
abbrev main_v14 : Ref sig .tc := ⟨.hbm, 55, rfl⟩
abbrev main_cst_2 : Ref sig .tc := ⟨.hbm, 56, rfl⟩
abbrev main_v15 : Ref sig .tc := ⟨.hbm, 57, rfl⟩
abbrev main_v16 : Ref sig .tc := ⟨.hbm, 58, rfl⟩

abbrev nD : Nat := 1
abbrev τ : Topo := Topo.v7x

variable {F : FTy → Type} [FloatOps F]

class Facts₀ : Prop where
  bcast_S4096x128_S4096x128x1_0_1 : S4096x128.BroadcastsInDim S4096x128x1 (![0, 1] : Fin 2 → Fin S4096x128x1.rank)
  bcast_S128x512_S1x128x512_1_2 : S128x512.BroadcastsInDim S1x128x512 (![1, 2] : Fin 2 → Fin S1x128x512.rank)
  bcast_S4096x128x1_S4096x128x512_0_1_2 : S4096x128x1.BroadcastsInDim S4096x128x512 (![0, 1, 2] : Fin 3 → Fin S4096x128x512.rank)
  bcast_S1x128x512_S4096x128x512_0_1_2 : S1x128x512.BroadcastsInDim S4096x128x512 (![0, 1, 2] : Fin 3 → Fin S4096x128x512.rank)
  bcast_S_S4096x128x512 : S_.BroadcastsInDim S4096x128x512 (![] : Fin 0 → Fin S4096x128x512.rank)
  reducesTo_S4096x128x512_S4096x512_d1 : S4096x128x512.ReducesTo [1] S4096x512
  h_S_ : 0 < S_.numel
  reducesTo_S4096x512_S4096_d1 : S4096x512.ReducesTo [1] S4096
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x512_0_1 : S4096x1.BroadcastsInDim S4096x512 (![0, 1] : Fin 2 → Fin S4096x512.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  reducesTo_S4096x1_S_d0_1 : S4096x1.ReducesTo [0, 1] S_
  gather_S4096x512_S4096x1x1_S4096x1_n_1_0_0_1_2_11_wf : GatherDims.WF S4096x512 S4096x1x1 S4096x1 [] [1] [0] [1] [0] 2 ![1, 1]

variable [Facts₀]

def gather_S4096x512_S4096x1x1_S4096x1_n_1_0_0_1_2_11 : GatherDims S4096x512 S4096x1x1 S4096x1 where
  offsetDims := []
  collapsedSliceDims := [1]
  operandBatchingDims := [0]
  startIndicesBatchingDims := [0]
  startIndexMap := [1]
  indexVectorDim := 2
  sliceSizes := ![1, 1]
  wf := gather_S4096x512_S4096x1x1_S4096x1_n_1_0_0_1_2_11_wf

class Facts : Prop extends Facts₀ where

variable [Facts]
-- ==== Proof.Consts.lean ====
/-
  The float words this certificate meets, as extended reals: 2, 4096, the small positive shift added before the
  norm (a dyadic rational, of which only its being a real number is used), and the three special patterns
  (minus infinity and a quiet NaN both read ⊥; plus infinity reads ⊤).
-/
import Idealize.ShloMosaic.PureOps.Ideal.Laws

noncomputable section

namespace Cert.Consts

open Idealize.ShloMosaic

theorem ofBits_two : Ideal.ofBits .f32 0x40000000#32 = ((2 : ℝ) : EReal) := by
  simp [Ideal.ofBits, Ideal.ieee, -EReal.coe_mul]; norm_num

theorem ofBits_4096 : Ideal.ofBits .f32 0x45800000#32 = ((4096 : ℝ) : EReal) := by
  simp [Ideal.ofBits, Ideal.ieee, -EReal.coe_mul]; norm_num

theorem ofBits_negInf : Ideal.ofBits .f32 0xFF800000#32 = (⊥ : EReal) := by simp [Ideal.ofBits, Ideal.ieee]

theorem ofBits_posInf : Ideal.ofBits .f32 0x7F800000#32 = (⊤ : EReal) := by simp [Ideal.ofBits, Ideal.ieee]

theorem ofBits_nan : Ideal.ofBits .f32 0x7FC00000#32 = (⊥ : EReal) := by simp [Ideal.ofBits, Ideal.ieee]

/-- The shift 0x358637BD (about 1e-6) is a real number. -/
theorem ofBits_shift : ∃ e : ℝ, Ideal.ofBits .f32 0x358637BD#32 = (e : EReal) := by
  have h1 : Ideal.ofBits .f32 0x358637BD#32 ≠ (⊥ : EReal) := by simp [Ideal.ofBits, Ideal.ieee, -EReal.coe_mul]
  have h2 : Ideal.ofBits .f32 0x358637BD#32 ≠ (⊤ : EReal) := by simp [Ideal.ofBits, Ideal.ieee, -EReal.coe_mul]
  exact ⟨_, (EReal.coe_toReal h2 h1).symm⟩

end Cert.Consts

end
-- ==== Proof.LibDistanceLoss.lean ====
/-
  Extended-real algebra behind a "negative Euclidean distance" score and a cross-entropy loss over such scores.

  * `coe_sum`: the coercion of a finite real sum is the sum of the coercions.
  * `sq_expand`, `neg_dist_eq`: for REAL data, the squared distance Σ_d (x_d - w_d + e)² is
    Σ_d (x_d+e)² - 2 Σ_d (x_d+e) w_d + Σ_d w_d², it is nonnegative, so clamping it at zero changes nothing, and
    `0 - √(max (…) 0)` in the expanded spelling is `-√(…)` in the direct one.
  * `fold_max_coe`, `lse_real`: the running maximum of finitely many reals from minus infinity over a nonempty
    range is a real, and so is the logarithm of the sum of the exponentials shifted by it (the sum is positive).
  * `lse_sub_real`, `lse_sub_bot`: with m the row maximum and l = log Σ exp(s - m), (m + l) - s_q = -((s_q - m) - l),
    and (m + l) - ⊥ = -⊥ = ⊤ — a row's loss term in the two spellings, the second at an entry that was replaced by ⊥.
  * `sum_ne_top`, `neg_sum`: a finite sum of extended reals none of which is ⊤ is not ⊤, and its negation is the sum
    of the negations (⊥ summands allowed: -(⊥ + r) = ⊤ = ⊤ - r).
  * `mean_neg`: hence (0 + Σ_j a_j) / c = -((0 + Σ_j b_j) / c) for a real c ≠ 0 whenever a_j = -b_j and no b_j is ⊤.
-/
import Idealize.ShloMosaic.PureOps.Ideal.Laws

noncomputable section

namespace Cert.LibDistanceLoss

open Idealize.ShloMosaic

/-- The coercion of a finite real sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Σ (a - w)² = Σ a² - 2 Σ a w + Σ w². -/
theorem sq_expand {ι : Type} (s : Finset ι) (a w : ι → ℝ) :
    ∑ d ∈ s, (a d - w d) * (a d - w d) = (∑ d ∈ s, a d * a d - 2 * ∑ d ∈ s, a d * w d) + ∑ d ∈ s, w d * w d := by
  rw [Finset.mul_sum, ← Finset.sum_sub_distrib, ← Finset.sum_add_distrib]
  exact Finset.sum_congr rfl fun d _ => by ring

/-- The expanded, clamped spelling of minus the distance is the direct one, on real data. -/
theorem neg_dist_eq {ι : Type} [Fintype ι] (x w : ι → ℝ) (e : ℝ) :
    (0 : EReal) - Ideal.sqrt (max (((∑ d, ((x d : EReal) + (e : EReal)) * ((x d : EReal) + (e : EReal)))
        - ((2 : ℝ) : EReal) * ∑ d, ((x d : EReal) + (e : EReal)) * (w d : EReal)) + (0 + ∑ d, (w d : EReal) * (w d : EReal))) 0)
      = -(Ideal.sqrt (0 + ∑ d, (((x d : EReal) - (w d : EReal)) + (e : EReal)) * (((x d : EReal) - (w d : EReal)) + (e : EReal)))) := by
  have hA : (∑ d, ((x d : EReal) + (e : EReal)) * ((x d : EReal) + (e : EReal))) = ((∑ d, (x d + e) * (x d + e) : ℝ) : EReal) := by
    rw [coe_sum]; exact Finset.sum_congr rfl fun d _ => by norm_cast
  have hC : (∑ d, ((x d : EReal) + (e : EReal)) * (w d : EReal)) = ((∑ d, (x d + e) * w d : ℝ) : EReal) := by
    rw [coe_sum]; exact Finset.sum_congr rfl fun d _ => by norm_cast
  have hB : (∑ d, (w d : EReal) * (w d : EReal)) = ((∑ d, w d * w d : ℝ) : EReal) := by
    rw [coe_sum]; exact Finset.sum_congr rfl fun d _ => by norm_cast
  have hR : (∑ d, (((x d : EReal) - (w d : EReal)) + (e : EReal)) * (((x d : EReal) - (w d : EReal)) + (e : EReal)))
      = ((∑ d, ((x d + e) - w d) * ((x d + e) - w d) : ℝ) : EReal) := by
    rw [coe_sum]; refine Finset.sum_congr rfl fun d _ => ?_
    have : ((x d : EReal) - (w d : EReal)) + (e : EReal) = (((x d + e) - w d : ℝ) : EReal) := by
      rw [← EReal.coe_sub, ← EReal.coe_add]; exact congrArg _ (by ring)
    rw [this, ← EReal.coe_mul]
  have h0 : 0 ≤ ∑ d, ((x d + e) - w d) * ((x d + e) - w d) := Finset.sum_nonneg fun d _ => mul_self_nonneg _
  rw [hA, hC, hB, hR, zero_add, zero_add, ← EReal.coe_mul, ← EReal.coe_sub, ← EReal.coe_add,
    ← sq_expand Finset.univ (fun d => x d + e) w, max_eq_left (by exact_mod_cast h0), sub_eq_add_neg, zero_add]

/-- Minus the distance of real data is a real number. -/
theorem neg_dist_real {ι : Type} [Fintype ι] (x w : ι → ℝ) (e : ℝ) :
    ∃ r : ℝ, -(Ideal.sqrt (0 + ∑ d, (((x d : EReal) - (w d : EReal)) + (e : EReal)) * (((x d : EReal) - (w d : EReal)) + (e : EReal))))
      = (r : EReal) := by
  have hR : (∑ d, (((x d : EReal) - (w d : EReal)) + (e : EReal)) * (((x d : EReal) - (w d : EReal)) + (e : EReal)))
      = ((∑ d, ((x d - w d) + e) * ((x d - w d) + e) : ℝ) : EReal) := by
    rw [coe_sum]; exact Finset.sum_congr rfl fun d _ => by norm_cast
  have h0 : 0 ≤ ∑ d, ((x d - w d) + e) * ((x d - w d) + e) := Finset.sum_nonneg fun d _ => mul_self_nonneg _
  exact ⟨-Real.sqrt (∑ d, ((x d - w d) + e) * ((x d - w d) + e)), by
    rw [hR, zero_add, Ideal.sqrt_coe, if_neg (not_lt.mpr h0), EReal.coe_neg]⟩

/-- The running maximum from minus infinity of finitely many reals, over a nonempty range, is a real. -/
theorem fold_max_coe {ι : Type} (t : Finset ι) (ht : t.Nonempty) (s : ι → ℝ) :
    ∃ r : ℝ, t.fold max (⊥ : EReal) (fun k => (s k : EReal)) = (r : EReal) := by
  classical
  induction ht using Finset.Nonempty.cons_induction with
  | singleton a => exact ⟨s a, by simp⟩
  | cons a t ha ht ih =>
    obtain ⟨r, hr⟩ := ih
    exact ⟨max (s a) r, by rw [Finset.fold_cons, hr]; exact (Monotone.map_max EReal.coe_strictMono.monotone).symm⟩

/-- The row maximum and the logarithm of the shifted exponentials' sum are reals. -/
theorem lse_real {b : ℕ} (hb : 0 < b) (s : Fin b → ℝ) :
    ∃ mr lr : ℝ, (Finset.univ.fold max (⊥ : EReal) fun k => (s k : EReal)) = (mr : EReal) ∧
      Ideal.log (∑ k, Ideal.exp ((s k : EReal) - (Finset.univ.fold max (⊥ : EReal) fun k => (s k : EReal)))) = (lr : EReal) := by
  obtain ⟨mr, hm⟩ := fold_max_coe Finset.univ ⟨⟨0, hb⟩, Finset.mem_univ _⟩ s
  refine ⟨mr, Real.log (∑ k, Real.exp (s k - mr)), hm, ?_⟩
  rw [hm]
  have hs : (∑ k, Ideal.exp ((s k : EReal) - (mr : EReal))) = ((∑ k, Real.exp (s k - mr) : ℝ) : EReal) := by
    rw [coe_sum]; exact Finset.sum_congr rfl fun k _ => by rw [← EReal.coe_sub]; rfl
  have hpos : 0 < ∑ k, Real.exp (s k - mr) :=
    Finset.sum_pos (fun k _ => Real.exp_pos _) ⟨⟨0, hb⟩, Finset.mem_univ _⟩
  rw [hs, Ideal.log_coe, if_neg (not_le.mpr hpos)]

/-- A row's loss term at a kept entry, in the two spellings. -/
theorem lse_sub_real (mr lr sq : ℝ) :
    ((mr : EReal) + (lr : EReal)) - (sq : EReal) = -(((sq : EReal) - (mr : EReal)) - (lr : EReal)) := by
  rw [← EReal.coe_add, ← EReal.coe_sub, ← EReal.coe_sub, ← EReal.coe_sub, ← EReal.coe_neg]
  exact congrArg _ (by ring)

/-- A row's loss term at an entry replaced by ⊥. -/
theorem lse_sub_bot (mr lr : ℝ) : ((mr : EReal) + (lr : EReal)) - (⊥ : EReal) = -(⊥ : EReal) := by
  rw [← EReal.coe_add, EReal.coe_sub_bot, EReal.neg_bot]

/-- A finite sum with no ⊤ summand is not ⊤. -/
theorem sum_ne_top {ι : Type} (s : Finset ι) (f : ι → EReal) (h : ∀ i ∈ s, f i ≠ ⊤) : ∑ i ∈ s, f i ≠ ⊤ := by
  classical
  induction s using Finset.induction_on with
  | empty => simp
  | insert a s ha ih =>
    rw [Finset.sum_insert ha]
    exact EReal.add_ne_top (h a (Finset.mem_insert_self a s)) (ih fun i hi => h i (Finset.mem_insert_of_mem hi))

/-- The negation of a finite sum with no ⊤ summand is the sum of the negations. -/
theorem neg_sum {ι : Type} (s : Finset ι) (f : ι → EReal) (h : ∀ i ∈ s, f i ≠ ⊤) : -(∑ i ∈ s, f i) = ∑ i ∈ s, -f i := by
  classical
  induction s using Finset.induction_on with
  | empty => simp
  | insert a s ha ih =>
    have hs : ∀ i ∈ s, f i ≠ ⊤ := fun i hi => h i (Finset.mem_insert_of_mem hi)
    rw [Finset.sum_insert ha, Finset.sum_insert ha,
      EReal.neg_add (Or.inr (sum_ne_top s f hs)) (Or.inl (h a (Finset.mem_insert_self a s))), sub_eq_add_neg, ih hs]

/-- The mean of the negated terms is minus the mean. -/
theorem mean_neg {ι : Type} [Fintype ι] (tK tR : ι → EReal) (h : ∀ j, tK j = -tR j) (hR : ∀ j, tR j ≠ ⊤) {c : ℝ}
    (hc : c ≠ 0) : Ideal.div (0 + ∑ j, tK j) (c : EReal) = -(Ideal.div (0 + ∑ j, tR j) (c : EReal)) := by
  rw [zero_add, zero_add, Ideal.div_coe hc, Ideal.div_coe hc, ← EReal.neg_mul, neg_sum _ _ fun j _ => hR j]
  exact congrArg (· * _) (Finset.sum_congr rfl fun j _ => h j)

end Cert.LibDistanceLoss

end
-- ==== Proof.LibAlongAxis.lean ====
/-
  `take_along_axis(x, idx, axis = 1)` of a matrix `x : [a, b]` at one index per row (`idx : [a, 1]`, reshaped to
  `[a, 1, 1]`), as StableHLO's gather with a batching axis: operand axis 0 is paired with the indices' axis 0, the
  index selects along operand axis 1, the slice is one element. Result entry `(p, 0)` reads `x` in ROW `p`, at a
  column computed from the index word alone (read signed and clamped into the row).
-/
import Idealize.ShloMosaic.Lib.ValueIdx

noncomputable section

namespace Cert.LibAlongAxis

open Idealize.ShloMosaic Idealize.ShloMosaic.ValueIdx

variable {α : Type} {a b : ℕ}

/-- The dimension numbers: no offset axis, operand axis 1 collapsed, operand axis 0 batching with indices' axis 0,
    the start index naming operand axis 1, the index vector on the indices' axis 2, slices of one element. -/
abbrev alongDims (a b : ℕ)
    (wf : GatherDims.WF ⟨2, ![a, b]⟩ ⟨3, ![a, 1, 1]⟩ ⟨2, ![a, 1]⟩ [] [1] [0] [1] [0] 2 ![1, 1]) :
    GatherDims ⟨2, ![a, b]⟩ ⟨3, ![a, 1, 1]⟩ ⟨2, ![a, 1]⟩ where
  offsetDims := []
  collapsedSliceDims := [1]
  operandBatchingDims := [0]
  startIndicesBatchingDims := [0]
  startIndexMap := [1]
  indexVectorDim := 2
  sliceSizes := ![1, 1]
  wf := wf

/-- The operand's row read by result entry `j` is `j`'s row. -/
theorem along_row (wf : GatherDims.WF ⟨2, ![a, b]⟩ ⟨3, ![a, 1, 1]⟩ ⟨2, ![a, 1]⟩ [] [1] [0] [1] [0] 2 ![1, 1]) {w : ℕ}
    (j : (⟨2, ![a, 1]⟩ : Shape).Idx) (idx : IVec ⟨3, ![a, 1, 1]⟩ w) :
    ((alongDims a b wf).operandIdx j idx 0).val = (j 0).val := by
  show (alongDims a b wf).start j idx 0 + (alongDims a b wf).batchCoord j 0 + (alongDims a b wf).offCoord j 0 = _
  rw [GatherDims.start_batching _ _ _ _ (List.mem_singleton.mpr rfl),
    GatherDims.offCoord_eq_zero _ _ _ (fun h => ((GatherDims.mem_sKept _ _).mp h).2 (List.mem_singleton.mpr rfl))]
  simp only [Nat.zero_add, Nat.add_zero]
  unfold GatherDims.batchCoord
  rw [dif_pos (List.mem_singleton.mpr rfl)]
  rfl

/-- The column read by result entry `j`: a function of the index array alone. -/
def alongCol (wf : GatherDims.WF ⟨2, ![a, b]⟩ ⟨3, ![a, 1, 1]⟩ ⟨2, ![a, 1]⟩ [] [1] [0] [1] [0] 2 ![1, 1]) {w : ℕ}
    (idx : IVec ⟨3, ![a, 1, 1]⟩ w) (j : (⟨2, ![a, 1]⟩ : Shape).Idx) : Fin b :=
  ⟨((alongDims a b wf).operandIdx j idx 1).val, idx2_lt1 _⟩

/-- THE GATHER READ AT `j`: the operand in `j`'s row, at the column the index word gives. -/
theorem along_apply (wf : GatherDims.WF ⟨2, ![a, b]⟩ ⟨3, ![a, 1, 1]⟩ ⟨2, ![a, 1]⟩ [] [1] [0] [1] [0] 2 ![1, 1]) {w : ℕ}
    (x : (⟨2, ![a, b]⟩ : Shape).Idx → α) (idx : IVec ⟨3, ![a, 1, 1]⟩ w) (j : (⟨2, ![a, 1]⟩ : Shape).Idx) :
    Host.gather (alongDims a b wf) x idx j = x (ix2 ⟨(j 0).val, idx2_lt0 j⟩ (alongCol wf idx j)) := by
  show x ((alongDims a b wf).operandIdx j idx) = _
  refine congrArg x (funext fun ax => Fin.ext ?_)
  match ax with
  | ⟨0, _⟩ => exact along_row wf j idx
  | ⟨1, _⟩ => rfl

end Cert.LibAlongAxis

end
-- ==== Proof.Spec.lean ====
/-
  What the two programs compute, as functions of the argument arrays over the extended reals, and why the two agree
  on finite data.

  Scores. For a row x_n of the [4096, 128] input and a column w_k of the [128, 512] prototypes, with e the small shift
  and the sums over d:
      direct spelling     -√(0 + Σ ((x_nd - w_dk) + e)²)
      expanded spelling   0 - √(max ((Σ (x_nd+e)² - 2·Σ (x_nd+e)·w_dk) + (0 + Σ w_dk²)) 0)
  equal when x and w are real (the expansion of the square; the clamp acts on a nonnegative number).

  Loss. With m_n the maximum of row n of the scores and l_n = log Σ_k exp(s_nk - m_n): one entry per row is taken at
  the row's label (read signed, wrapped once if negative, and replaced by the junk value ⊥ when it still falls outside
  the row); the expanded program averages (m_n + l_n) - pick_n(s), the direct one negates the average of
  pick_n((s - m) - l). Row by row the first term is minus the second (both are ⊤ / ⊥ at a replaced entry), no second
  term is ⊤, so the sums are negatives of one another and so are the means.
-/
import proofs.«108930_j68642167325149_2_alg».proof.Proof.Consts
import proofs.«108930_j68642167325149_2_alg».proof.Proof.LibDistanceLoss
import proofs.«108930_j68642167325149_2_alg».proof.Proof.LibAlongAxis
import Idealize.ShloMosaic.Lib.ValueIdx
import Idealize.ShloMosaic.Lib.ValueLayout
import Idealize.ShloMosaic.Lib.Pipeline.Value
import Idealize.ShloMosaic.PureOps.Ideal.Laws

noncomputable section

namespace Cert.Spec

open Idealize.ShloMosaic Idealize.ShloMosaic.ValueIdx Cert.LibDistanceLoss Cert.LibAlongAxis

abbrev SX : Shape := ⟨2, ![4096, 128]⟩
abbrev SW : Shape := ⟨2, ![128, 512]⟩
abbrev SS : Shape := ⟨2, ![4096, 512]⟩
abbrev SC : Shape := ⟨2, ![4096, 1]⟩
abbrev SL : Shape := ⟨1, ![4096]⟩
abbrev S0 : Shape := ⟨0, ![]⟩
abbrev SC3 : Shape := ⟨3, ![4096, 1, 1]⟩
abbrev S1 : Shape := ⟨1, ![1]⟩
abbrev S111 : Shape := ⟨3, ![1, 1, 1]⟩

/-- The shift, two, zero and minus infinity as the programs spell them. -/
abbrev E : EReal := Ideal.ofBits .f32 0x358637BD#32
abbrev TWO : EReal := Ideal.ofBits .f32 0x40000000#32
abbrev Z : EReal := Ideal.ofBits .f32 0x00000000#32
abbrev NINF : EReal := Ideal.ofBits .f32 0xFF800000#32

/-! ## One score -/

/-- The expanded spelling, from a row of x, a column of w and that column's sum of squares. -/
def kscore (xrow wcol : Fin 128 → EReal) (sqb : EReal) : EReal :=
  Z - Ideal.sqrt (max (((∑ d, (xrow d + E) * (xrow d + E)) - TWO * ∑ d, (xrow d + E) * wcol d) + sqb) Z)

/-- A column's sum of squares, from zero. -/
def sqcol (wcol : Fin 128 → EReal) : EReal := Z + ∑ d, wcol d * wcol d

/-- The direct spelling. -/
def rscore (xrow wcol : Fin 128 → EReal) : EReal :=
  -(Ideal.sqrt (Z + ∑ d, ((xrow d - wcol d) + E) * ((xrow d - wcol d) + E)))

/-- A row's maximum from minus infinity, and the logarithm of its shifted exponentials' sum. -/
def rowMax (s : Fin 512 → EReal) : EReal := (Finset.univ : Finset (Fin 512)).fold max NINF s
def rowLog (s : Fin 512 → EReal) : EReal := Ideal.log (∑ k, Ideal.exp (s k - rowMax s))

/-! ## The arrays -/

/-- The row and the column of a matrix index. -/
abbrev rowOf {a b : ℕ} (i : (⟨2, ![a, b]⟩ : Shape).Idx) : Fin a := ⟨(i 0).val, idx2_lt0 i⟩
abbrev colOf {a b : ℕ} (i : (⟨2, ![a, b]⟩ : Shape).Idx) : Fin b := ⟨(i 1).val, idx2_lt1 i⟩

def kscores (x : FVec Ideal SX .f32) (w : FVec Ideal SW .f32) : FVec Ideal SS .f32 := fun i =>
  kscore (fun d => x (ix2 (rowOf i) d)) (fun d => w (ix2 d (colOf i))) (sqcol fun d => w (ix2 d (colOf i)))

def rscores (x : FVec Ideal SX .f32) (w : FVec Ideal SW .f32) : FVec Ideal SS .f32 := fun i =>
  rscore (fun d => x (ix2 (rowOf i) d)) (fun d => w (ix2 d (colOf i)))

/-- Row maximum plus log-sum, one per row, as a column. -/
def lse (s : FVec Ideal SS .f32) : FVec Ideal SC .f32 := fun j =>
  rowMax (fun k => s (ix2 (rowOf j) k)) + rowLog (fun k => s (ix2 (rowOf j) k))

/-- The log-softmax of every row. -/
def logp (s : FVec Ideal SS .f32) : FVec Ideal SS .f32 := fun i =>
  (s i - rowMax (fun k => s (ix2 (rowOf i) k))) - rowLog (fun k => s (ix2 (rowOf i) k))

/-! ## Taking one entry per row at the row's label -/

def lab2 (lab : IVec SL 32) : IVec SC 32 := broadcastInDim SC ![0] (by decide) lab

/-- The start index per row: the label, plus 512 when negative. -/
def startIdx (lab : IVec SL 32) : IVec SC3 32 :=
  shapeCast SC3 (select (cmpi .slt (lab2 lab) (broadcastInDim SC ![] (by decide) (constantI S0 32 0#32)))
    (addi (lab2 lab) (broadcastInDim SC ![] (by decide) (constantI S0 32 512#32))) (lab2 lab)) (by decide)

/-- Whether that index lies in 0 … 511. -/
def inRange (lab : IVec SL 32) : IVec SC 1 :=
  Host.reduce IntOp.andi (andi (cmpi .sge (startIdx lab) (broadcastInDim SC3 ![] (by decide) (constantI S0 32 0#32)))
    (cmpi .sle (startIdx lab) (broadcastInDim SC3 ![0, 1, 2] (by decide) (broadcastInDim S111 ![2] (by decide) (constantI S1 32 511#32)))))
    (constantI S0 1 1#1) (by decide : SC3.ReducesTo [2] SC) (by decide)

/-- The entry of each row at its label, or the junk value where the label is out of range. -/
def pick (lab : IVec SL 32) (op : FVec Ideal SS .f32) : FVec Ideal SC .f32 :=
  select (inRange lab) (Host.gather (alongDims 4096 512 (by decide)) op (startIdx lab))
    (broadcastInDim SC ![] (by decide) (constant (F := Ideal) S0 .f32 0x7FC00000#32))

/-- The column the gather reads in row `j`. -/
abbrev pcol (lab : IVec SL 32) (j : SC.Idx) : Fin 512 := alongCol (by decide) (startIdx lab) j

theorem pick_apply (lab : IVec SL 32) (op : FVec Ideal SS .f32) (j : SC.Idx) :
    pick lab op j = Scalar.select (inRange lab j) (op (ix2 (rowOf j) (pcol lab j))) (Ideal.ofBits .f32 0x7FC00000#32) := by
  show Scalar.select (inRange lab j) (Host.gather (alongDims 4096 512 (by decide)) op (startIdx lab) j)
      (broadcastInDim SC ![] (by decide) (constant (F := Ideal) S0 .f32 0x7FC00000#32) j) = _
  rw [along_apply, broadcastInDim_apply _ _ _ j ix0 (fun a => a.elim0)]
  rfl

/-! ## The two losses -/

/-- The expanded program's: the mean over rows of (row maximum + log-sum) minus the picked score. -/
def kloss (lab : IVec SL 32) (scores : FVec Ideal SS .f32) (lsev : FVec Ideal SC .f32) : FVec Ideal S0 .f32 :=
  Host.divf (Host.reduceAdd (subf lsev (pick lab scores)) (constant (F := Ideal) S0 .f32 0x00000000#32) (by decide : SC.ReducesTo [0, 1] S0) (by decide))
    (constant (F := Ideal) S0 .f32 0x45800000#32)

/-- The direct program's: minus the mean over rows of the picked log-probability. -/
def rloss (lab : IVec SL 32) (lp : FVec Ideal SS .f32) : FVec Ideal S0 .f32 :=
  Host.negf (Host.divf (Host.reduceAdd (pick lab lp) (constant (F := Ideal) S0 .f32 0x00000000#32) (by decide : SC.ReducesTo [0, 1] S0) (by decide))
    (constant (F := Ideal) S0 .f32 0x45800000#32))

/-! ## The two score spellings agree on real data -/

theorem kscores_eq (x : FVec Ideal SX .f32) (w : FVec Ideal SW .f32) (hx : ∀ i, ∃ r : ℝ, x i = (r : EReal))
    (hw : ∀ i, ∃ r : ℝ, w i = (r : EReal)) : kscores x w = rscores x w := by
  choose xr hxr using hx
  choose wr hwr using hw
  obtain ⟨e, he⟩ := Consts.ofBits_shift
  funext i
  unfold kscores rscores kscore rscore sqcol
  simp only [E, TWO, Z, he, Consts.ofBits_two, Ideal.ofBits_zero_f32, hxr, hwr]
  exact neg_dist_eq (fun d => xr (ix2 (rowOf i) d)) (fun d => wr (ix2 d (colOf i))) e

theorem rscores_real (x : FVec Ideal SX .f32) (w : FVec Ideal SW .f32) (hx : ∀ i, ∃ r : ℝ, x i = (r : EReal))
    (hw : ∀ i, ∃ r : ℝ, w i = (r : EReal)) (i : SS.Idx) : ∃ r : ℝ, rscores x w i = (r : EReal) := by
  choose xr hxr using hx
  choose wr hwr using hw
  obtain ⟨e, he⟩ := Consts.ofBits_shift
  unfold rscores rscore
  simp only [E, Z, he, Ideal.ofBits_zero_f32, hxr, hwr]
  exact neg_dist_real (fun d => xr (ix2 (rowOf i) d)) (fun d => wr (ix2 d (colOf i))) e

/-! ## The two losses agree on real scores -/

theorem kloss_eq (lab : IVec SL 32) (s : FVec Ideal SS .f32) (hs : ∀ i, ∃ r : ℝ, s i = (r : EReal)) :
    kloss lab s (lse s) = rloss lab (logp s) := by
  choose sr hsr using hs
  funext i
  show Ideal.div (Ideal.hostReduceAdd (by decide : SC.ReducesTo [0, 1] S0) (subf (lse s) (pick lab s)) (Ideal.ofBits .f32 0x00000000#32) i)
      (Ideal.ofBits .f32 0x45800000#32)
    = -(Ideal.div (Ideal.hostReduceAdd (by decide : SC.ReducesTo [0, 1] S0) (pick lab (logp s)) (Ideal.ofBits .f32 0x00000000#32) i)
      (Ideal.ofBits .f32 0x45800000#32))
  rw [Ideal.hostReduceAdd_total _ (fun b => b.elim0), Ideal.hostReduceAdd_total _ (fun b => b.elim0),
    Ideal.ofBits_zero_f32, Consts.ofBits_4096]
  refine mean_neg _ _ (fun j => ?_) (fun j => ?_) (by norm_num)
  · -- one row's two terms
    obtain ⟨mr, lr, hm, hl⟩ := lse_real (by decide : 0 < 512) (fun k => sr (ix2 (rowOf j) k))
    have hm' : rowMax (fun k => s (ix2 (rowOf j) k)) = (mr : EReal) := by
      unfold rowMax; simp only [NINF, Consts.ofBits_negInf, hsr]; exact hm
    have hl' : rowLog (fun k => s (ix2 (rowOf j) k)) = (lr : EReal) := by
      unfold rowLog rowMax; simp only [NINF, Consts.ofBits_negInf, hsr]; exact hl
    show lse s j - pick lab s j = -(pick lab (logp s) j)
    rw [pick_apply, pick_apply, Consts.ofBits_nan]
    have hrow : rowOf (ix2 (rowOf j) (pcol lab j)) = rowOf j := rfl
    have hlse : lse s j = (mr : EReal) + (lr : EReal) := by unfold lse; rw [hm', hl']
    have hlp : logp s (ix2 (rowOf j) (pcol lab j)) = ((sr (ix2 (rowOf j) (pcol lab j)) : EReal) - (mr : EReal)) - (lr : EReal) := by
      unfold logp; rw [hrow, hm', hl', hsr]
    rw [hlse, hlp, hsr]
    unfold Scalar.select
    split
    · exact lse_sub_real mr lr _
    · exact lse_sub_bot mr lr
  · -- no picked log-probability is ⊤
    obtain ⟨mr, lr, hm, hl⟩ := lse_real (by decide : 0 < 512) (fun k => sr (ix2 (rowOf j) k))
    have hm' : rowMax (fun k => s (ix2 (rowOf j) k)) = (mr : EReal) := by
      unfold rowMax; simp only [NINF, Consts.ofBits_negInf, hsr]; exact hm
    have hl' : rowLog (fun k => s (ix2 (rowOf j) k)) = (lr : EReal) := by
      unfold rowLog rowMax; simp only [NINF, Consts.ofBits_negInf, hsr]; exact hl
    rw [pick_apply, Consts.ofBits_nan]
    have hrow : rowOf (ix2 (rowOf j) (pcol lab j)) = rowOf j := rfl
    have hlp : logp s (ix2 (rowOf j) (pcol lab j)) = ((sr (ix2 (rowOf j) (pcol lab j)) : EReal) - (mr : EReal)) - (lr : EReal) := by
      unfold logp; rw [hrow, hm', hl', hsr]
    rw [hlp]
    unfold Scalar.select
    split
    · rw [← EReal.coe_sub, ← EReal.coe_sub]; exact EReal.coe_ne_top _
    · exact bot_ne_top

end Cert.Spec

end
-- ==== Proof.LibColumn.lean ====
/-
  Rank-2 "keepdims" forms read at an index given by coordinates, for any extents a × b:
  a vector [a] cast to a column [a, 1] (`shapeCast_a_a1_apply`), a column [a, 1] broadcast across b lanes
  (`broadcastTo_a1_ab_apply`), and the sum of a matrix along its last axis, on the extended reals, as a sum over
  the lane coordinate (`sum_last_apply`). Together with the row forms [a] → [1, a] → [b, a] of the layout library
  they read `sum(x·x, axis=-1, keepdims=True)`-style expressions entry by entry.
-/
import Idealize.ShloMosaic.Lib.ValueLayout
import Idealize.ShloMosaic.PureOps.Ideal.Laws

noncomputable section

namespace Cert.LibColumn

open Idealize.ShloMosaic Idealize.ShloMosaic.ValueIdx

variable {α : Type}

/-- An `[a]` array cast to `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an `[a, b]` matrix along its last axis, read at row `p` on the extended reals, is the sum over the
    lane coordinate of that row's entries (the accumulator word is the neutral one, zero). -/
theorem sum_last_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ x 0x00000000#32 h hφ hacc (ix1 p) = ∑ d : Fin b, x (ix2 p d) := by
  refine (Ideal.multiReduction_add_single x 0x00000000#32 h hφ hacc (ix1 p)).trans ?_
  show ∑ d : Fin b, x (h.lift (ix1 p) d) = ∑ d : Fin b, x (ix2 p d)
  refine Finset.sum_congr rfl fun d _ => congrArg x (funext fun c => Fin.ext ?_)
  match c with
  | ⟨0, _⟩ => rfl
  | ⟨1, _⟩ => rfl

end Cert.LibColumn

end
-- ==== Proof.LibLastAxis.lean ====
/-
  Two general facts over the extended reals, for any extents.

  * `max_last_apply`: a vector maximum of an `[a, b]` matrix along its LAST axis, read at row `p`, is the fold of
    `max` from the accumulator's value over the `b` lanes of that row (the companion of the last-axis sum and of
    the first-axis maximum).
  * `sum_mul_coe`: a finite sum of extended reals multiplied by a nonnegative REAL is the sum of the products,
    whatever the summands are — infinities of either sign included — because multiplication by a nonnegative
    finite factor distributes over every sum of two extended reals. It is what lets a positive scale move
    across a contraction without any finiteness of the operands.
-/
import Idealize.ShloMosaic.PureOps.Ideal.Laws
import Idealize.ShloMosaic.Lib.ValueIdx

noncomputable section

namespace Cert.LibLastAxis

open Idealize.ShloMosaic Idealize.ShloMosaic.ValueIdx

/-- A vector maximum along the last axis of a matrix, at row `p`: the fold of `max` from the accumulator's value
    over the lanes. -/
theorem max_last_apply {a b : ℕ} {φ : FTy} (x : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ x acc h hφ hacc (ix1 p)
      = (Finset.univ : Finset (Fin b)).fold max (Ideal.ofBits φ acc) fun k => x (ix2 p k) := by
  refine (Ideal.multiReduction_maximumf_single x acc h hφ hacc (ix1 p)).trans ?_
  refine congrArg (Finset.fold max (Ideal.ofBits φ acc) · Finset.univ) (funext fun k => ?_)
  exact congrArg x (funext fun c => Fin.ext (by match c with | ⟨0, _⟩ => rfl | ⟨1, _⟩ => rfl))

/-- A sum of extended reals times a nonnegative real is the sum of the products. -/
theorem sum_mul_coe {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

end Cert.LibLastAxis

end
-- ==== Proof.LibRowMax.lean ====
/-
  Reading a "subtract the column maximum" expression over a matrix at an index given by its coordinates, for any
  extents a × b.

  * The index over the column coordinate `q` with row coordinate `k` inserted on the first axis is `(k, q)`; hence, on
    the extended reals, a vector maximum along the FIRST axis of an `[a, b]` matrix is the fold of `max` over the row
    coordinate, and the host's maximum along the first axis is the same fold from its initial value; the vector maxima
    kept as a row `[1, b]` and broadcast down the rows again read the column's maximum at every row.
  * The host's keepdims forms: a `[b]` vector placed as the one row of `[1, b]`, that row broadcast down `a` rows, and
    a column `[a, 1]` broadcast across `b` columns.
  * A plain matrix product `[a, k] × [k, b] → [a, b]` (the left operand's last axis contracted with the right
    operand's first): its sum over the contraction index is the sum over `e : Fin k` of `lhs (i, e) * rhs (e, j)`, for
    the vector unit's product into a zero accumulator and for the host's.
-/
import Idealize.ShloMosaic.Lib.ValueLayout
import Idealize.ShloMosaic.Lib.Pipeline.Value
import Idealize.ShloMosaic.PureOps.Ideal.Laws

noncomputable section

namespace Cert.LibRowMax

open Idealize.ShloMosaic Idealize.ShloMosaic.ValueIdx

variable {α : Type} {a b : ℕ}

/-! ## The maximum along the first axis -/

/-- Over the column coordinate `q`, with `k` inserted on the first axis: `(k, q)`. -/
theorem lift_first (h : (⟨2, ![a, b]⟩ : Shape).Reduces [0] ⟨1, ![b]⟩) (q : Fin b) (k : Fin a) :
    h.lift (ix1 q) k = ix2 k q := by
  funext ax
  apply Fin.ext
  match ax with
  | ⟨0, _⟩ => rfl
  | ⟨1, _⟩ => rfl

variable {φ : FTy}

/-- A vector maximum along the first axis, at column `q`: the fold of `max` from the accumulator's value over the rows. -/
theorem multiReduction_max_first (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction .maximumf [0] ⟨1, ![b]⟩ src acc h hφ hacc (ix1 q)
      = (Finset.univ : Finset (Fin a)).fold max (Ideal.ofBits φ acc) fun k => src (ix2 k q) := by
  refine (Ideal.multiReduction_maximumf_single src acc h hφ hacc (ix1 q)).trans ?_
  refine congrArg (Finset.fold max (Ideal.ofBits φ acc) · Finset.univ) (funext fun k => ?_)
  exact congrArg src (lift_first h q k)

/-- The host's maximum along the first axis, at column `q`: the fold of `max` from the initial value over the rows. -/
theorem hostReduce_max_first {u : Shape} (x : (⟨2, ![a, b]⟩ : Shape).Idx → Ideal φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.maximumf (F := Ideal) (φ := φ)) x init h' hu (ix1 q)
      = (Finset.univ : Finset (Fin a)).fold max (init (Shape.Idx.first hu)) fun k => x (ix2 k q) := by
  refine (Host.reduce_eq_fold_single (FloatOps.maximumf (F := Ideal) (φ := φ)) x init h' h hu (ix1 q)).trans ?_
  refine congrArg (Finset.fold max (init (Shape.Idx.first hu)) · Finset.univ) (funext fun k => ?_)
  exact congrArg x (lift_first h q k)

/-- The column maxima kept as one row `[1, b]` and broadcast down `a` rows again read, at `(p, q)`, the maximum of
    column `q`. -/
theorem colMax_broadcastTo_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ (multiReduction .maximumf [0] ⟨1, ![b]⟩ src acc h hφ hacc) hc) hb (ix2 p q)
      = (Finset.univ : Finset (Fin a)).fold max (Ideal.ofBits φ acc) fun k => src (ix2 k q) :=
  (broadcastTo_1b_ab_apply _ hb p q).trans
    ((shapeCast_a_1a_apply _ hc (0 : Fin 1) q).trans (multiReduction_max_first src acc h hφ hacc q))

/-! ## The host's keepdims forms -/

/-- A `[b]` vector placed as the row of `[1, b]` reads, at `(u, q)`, the vector at `q`. -/
theorem broadcastInDim_b_1b_apply (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A `[1, b]` row broadcast down `a` rows reads, at `(p, q)`, the row at `q`. -/
theorem broadcastInDim_1b_ab_apply (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

/-- An `[a, 1]` column broadcast across `b` columns reads, at `(p, q)`, the column's entry in row `p`. -/
theorem broadcastInDim_a1_ab_apply (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-! ## A plain matrix product -/

variable {k : ℕ}

/-- The dimension numbers of a plain product `[a, k] × [k, b] → [a, b]`: no batch axis, the left operand's last axis
    contracted with the right operand's first. -/
abbrev plainDims (a k b : ℕ)
    (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

/-- The left operand's index at output `(i, j)` and contraction coordinate `e` is `(i, e)`. -/
theorem plain_lhsIdx (wf : DotDims.WF ⟨2, ![a, k]⟩ ⟨2, ![k, b]⟩ ⟨2, ![a, b]⟩ [1] [0] [0] [1] [] [])
    (i : Fin a) (j : Fin b) (e : Fin k) :
    (plainDims a k b wf).lhsIdx (ix2 i j) ((contrEquiv1 (plainDims a k b wf) k rfl rfl).symm e) = ix2 i e := by
  funext ax
  apply Fin.ext
  match ax with
  | ⟨0, _⟩ => rfl
  | ⟨1, _⟩ =>
    exact ((plainDims a k b wf).lhsIdx_val_of_single rfl (ix2 i j) _).trans
      (contrEquiv1_symm_val (plainDims a k b wf) k rfl rfl e)

/-- The right operand's index at output `(i, j)` and contraction coordinate `e` is `(e, j)`. -/
theorem plain_rhsIdx (wf : DotDims.WF ⟨2, ![a, k]⟩ ⟨2, ![k, b]⟩ ⟨2, ![a, b]⟩ [1] [0] [0] [1] [] [])
    (i : Fin a) (j : Fin b) (e : Fin k) :
    (plainDims a k b wf).rhsIdx (ix2 i j) ((contrEquiv1 (plainDims a k b wf) k rfl rfl).symm e) = ix2 e j := by
  funext ax
  apply Fin.ext
  match ax with
  | ⟨0, _⟩ =>
    exact ((plainDims a k b wf).rhsIdx_val_of_single rfl (ix2 i j) _).trans
      (contrEquiv1_symm_val (plainDims a k b wf) k rfl rfl e)
  | ⟨1, _⟩ => rfl

/-- The contraction's sum of products, over the contracted coordinate. -/
theorem plain_sum (wf : DotDims.WF ⟨2, ![a, k]⟩ ⟨2, ![k, b]⟩ ⟨2, ![a, b]⟩ [1] [0] [0] [1] [] [])
    (lhs : (⟨2, ![a, k]⟩ : Shape).Idx → EReal) (rhs : (⟨2, ![k, b]⟩ : Shape).Idx → EReal) (i : Fin a) (j : Fin b) :
    ∑ kk : (plainDims a k b wf).contr.Idx,
        lhs ((plainDims a k b wf).lhsIdx (ix2 i j) kk) * rhs ((plainDims a k b wf).rhsIdx (ix2 i j) kk)
      = ∑ e : Fin k, lhs (ix2 i e) * rhs (ix2 e j) := by
  rw [← Equiv.sum_comp (contrEquiv1 (plainDims a k b wf) k rfl rfl).symm]
  refine Finset.sum_congr rfl fun e _ => ?_
  rw [plain_lhsIdx wf i j e, plain_rhsIdx wf i j e]

/-- The vector unit's plain product into a zero accumulator, at `(i, j)`: the sum over `e` of `lhs (i, e) * rhs (e, j)`. -/
theorem matmul_plain_apply {φ₁ φ₂ : FTy} (wf : DotDims.WF ⟨2, ![a, k]⟩ ⟨2, ![k, b]⟩ ⟨2, ![a, b]⟩ [1] [0] [0] [1] [] [])
    (prec : Option ContractPrecision) (lhs : FVec Ideal ⟨2, ![a, k]⟩ φ₁) (rhs : FVec Ideal ⟨2, ![k, b]⟩ φ₂)
    (i : Fin a) (j : Fin b) :
    FloatOps.matmul (plainDims a k b wf) prec lhs rhs (constant ⟨2, ![a, b]⟩ .f32 0x00000000#32) (ix2 i j)
      = ∑ e : Fin k, lhs (ix2 i e) * rhs (ix2 e j) :=
  (Ideal.matmul_constant_zero_apply (plainDims a k b wf) prec lhs rhs (ix2 i j)).trans (plain_sum wf lhs rhs i j)

/-- The host's plain product, at `(i, j)`: the same sum. -/
theorem dotGeneral_plain_apply {φ₁ φ₂ : FTy} (wf : DotDims.WF ⟨2, ![a, k]⟩ ⟨2, ![k, b]⟩ ⟨2, ![a, b]⟩ [1] [0] [0] [1] [] [])
    (prec : Option ContractPrecision) (sched : HostSchedule) (lhs : FVec Ideal ⟨2, ![a, k]⟩ φ₁)
    (rhs : FVec Ideal ⟨2, ![k, b]⟩ φ₂) (i : Fin a) (j : Fin b) :
    FloatOps.dotGeneral (plainDims a k b wf) prec sched lhs rhs (ix2 i j)
      = ∑ e : Fin k, lhs (ix2 i e) * rhs (ix2 e j) :=
  (Ideal.dotGeneral_apply (plainDims a k b wf) prec sched lhs rhs (ix2 i j)).trans (plain_sum wf lhs rhs i j)

end Cert.LibRowMax

end
-- ==== Proof.LibLogSoftmax.lean ====
/-
  A row-wise log-softmax of an `[a, b]` matrix along its last axis, read at an entry given by its coordinates, on the
  extended reals, for any extents, in the two spellings programs print:

      (x_{p q} − m_p) − log Σ_d exp (x_{p d} − m_p),     m_p the fold of `max` over row `p` from minus infinity.

  * The vector unit's: the row maximum and the row sum are one-axis reductions kept as a column (`[a] → [a, 1]`) and
    broadcast across the lanes (`vector_apply`).
  * The host's: the row maximum is a reduce from minus infinity, joined once more with minus infinity (which changes
    nothing), the row sum a reduce from zero; both are placed as a column and broadcast (`host_apply`).
  Also the keepdims forms used on the way: a vector placed as a column and spread over the lanes reads the vector
  at the row (`keep_vector_apply`, `keep_host_apply`).
-/
import proofs.«108930_j68642167325149_2_alg».proof.Proof.LibColumn
import proofs.«108930_j68642167325149_2_alg».proof.Proof.LibLastAxis
import proofs.«108930_j68642167325149_2_alg».proof.Proof.LibRowMax
import Idealize.ShloMosaic.Lib.ValueLayout
import Idealize.ShloMosaic.Lib.Pipeline.Value
import Idealize.ShloMosaic.PureOps.Ideal.Laws

noncomputable section

namespace Cert.LibLogSoftmax

open Idealize.ShloMosaic Idealize.ShloMosaic.ValueIdx Cert.LibColumn Cert.LibLastAxis Cert.LibRowMax

variable {α : Type} {a b : ℕ}

/-- A vector `[a]` cast to a column and broadcast over `b` lanes reads, at `(p, q)`, the vector at `p`. -/
theorem keep_vector_apply (v : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (q : Fin b) :
    broadcastTo ⟨2, ![a, b]⟩ (shapeCast ⟨2, ![a, 1]⟩ v hc) hb (ix2 p q) = v (ix1 p) :=
  (broadcastTo_a1_ab_apply _ hb p q).trans (shapeCast_a_a1_apply v hc p 0)

/-- The host's `[a]` vector placed as a column `[a, 1]` reads, at `(p, u)`, the vector at `p`. -/
theorem broadcastInDim_a_a1_apply (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- The host's vector placed as a column and broadcast over `b` lanes reads, at `(p, q)`, the vector at `p`. -/
theorem keep_host_apply (v : (⟨1, ![a]⟩ : Shape).Idx → α) (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    broadcastInDim ⟨2, ![a, b]⟩ ![0, 1] h2 (broadcastInDim ⟨2, ![a, 1]⟩ ![0] h1 v) (ix2 p q) = v (ix1 p) :=
  (broadcastInDim_a1_ab_apply _ h2 p q).trans (broadcastInDim_a_a1_apply v h1 p 0)

/-- The maximum from minus infinity. -/
theorem max_negInf (y : EReal) : max (Ideal.ofBits .f32 0xFF800000#32) y = y := by
  simp [Ideal.ofBits, Ideal.ieee]

/-- The vector unit's log-softmax along the last axis, at `(p, q)`. -/
theorem vector_apply (x : FVec Ideal ⟨2, ![a, b]⟩ .f32) (hr : (⟨2, ![a, b]⟩ : Shape).Reduces [1] ⟨1, ![a]⟩)
    (hφ : FKind.Formats .f32) (hmax : (0xFF800000#32 : BitVec 32) = FKind.maximumf.neutral .f32 hφ)
    (hadd : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, b]⟩)
    (p : Fin a) (q : Fin b) :
    subf (subf x (broadcastTo ⟨2, ![a, b]⟩ (shapeCast ⟨2, ![a, 1]⟩
          (multiReduction .maximumf [1] ⟨1, ![a]⟩ x 0xFF800000#32 hr hφ hmax) hc) hb))
      (broadcastTo ⟨2, ![a, b]⟩ (log (shapeCast ⟨2, ![a, 1]⟩
          (multiReduction .add [1] ⟨1, ![a]⟩
            (exp (subf x (broadcastTo ⟨2, ![a, b]⟩ (shapeCast ⟨2, ![a, 1]⟩
              (multiReduction .maximumf [1] ⟨1, ![a]⟩ x 0xFF800000#32 hr hφ hmax) hc) hb)))
            0x00000000#32 hr hφ hadd) hc)) hb) (ix2 p q)
    = (x (ix2 p q) - (Finset.univ : Finset (Fin b)).fold max (Ideal.ofBits .f32 0xFF800000#32) fun d => x (ix2 p d))
      - Ideal.log (∑ d : Fin b, Ideal.exp (x (ix2 p d)
          - (Finset.univ : Finset (Fin b)).fold max (Ideal.ofBits .f32 0xFF800000#32) fun d => x (ix2 p d))) := by
  have e1 : ∀ d : Fin b, broadcastTo ⟨2, ![a, b]⟩ (shapeCast ⟨2, ![a, 1]⟩
        (multiReduction .maximumf [1] ⟨1, ![a]⟩ x 0xFF800000#32 hr hφ hmax) hc) hb (ix2 p d)
      = (Finset.univ : Finset (Fin b)).fold max (Ideal.ofBits .f32 0xFF800000#32) fun d => x (ix2 p d) := fun d =>
    (keep_vector_apply _ hc hb p d).trans (max_last_apply x 0xFF800000#32 hr hφ hmax p)
  have e2 : broadcastTo ⟨2, ![a, b]⟩ (log (shapeCast ⟨2, ![a, 1]⟩
        (multiReduction .add [1] ⟨1, ![a]⟩
          (exp (subf x (broadcastTo ⟨2, ![a, b]⟩ (shapeCast ⟨2, ![a, 1]⟩
            (multiReduction .maximumf [1] ⟨1, ![a]⟩ x 0xFF800000#32 hr hφ hmax) hc) hb)))
          0x00000000#32 hr hφ hadd) hc)) hb (ix2 p q)
      = Ideal.log (∑ d : Fin b, Ideal.exp (x (ix2 p d)
          - (Finset.univ : Finset (Fin b)).fold max (Ideal.ofBits .f32 0xFF800000#32) fun d => x (ix2 p d))) := by
    refine (broadcastTo_a1_ab_apply _ hb p q).trans ?_
    show Ideal.log (shapeCast ⟨2, ![a, 1]⟩ _ hc (ix2 p (0 : Fin 1))) = _
    rw [shapeCast_a_a1_apply _ hc p 0]
    refine congrArg Ideal.log ((sum_last_apply _ hr hφ hadd p).trans (Finset.sum_congr rfl fun d _ => ?_))
    show Ideal.exp (x (ix2 p d) - _) = _
    rw [e1 d]
  show (x (ix2 p q) - _) - _ = _
  rw [e1 q, e2]

/-- The host's log-softmax along the last axis, at `(p, q)`. -/
theorem host_apply (x : FVec Ideal ⟨2, ![a, b]⟩ .f32) (hr' : (⟨2, ![a, b]⟩ : Shape).ReducesTo [1] ⟨1, ![a]⟩)
    (hr : (⟨2, ![a, b]⟩ : Shape).Reduces [1] ⟨1, ![a]⟩) (hu : 0 < (⟨0, ![]⟩ : Shape).numel)
    (h0 : (⟨0, ![]⟩ : Shape).BroadcastsInDim ⟨1, ![a]⟩ ![])
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    subf (subf x (broadcastInDim ⟨2, ![a, b]⟩ ![0, 1] h2 (broadcastInDim ⟨2, ![a, 1]⟩ ![0] h1
          (maximumf (broadcastInDim ⟨1, ![a]⟩ ![] h0 (constant (F := Ideal) ⟨0, ![]⟩ .f32 0xFF800000#32))
            (Host.reduce FloatOps.maximumf x (constant (F := Ideal) ⟨0, ![]⟩ .f32 0xFF800000#32) hr' hu)))))
      (broadcastInDim ⟨2, ![a, b]⟩ ![0, 1] h2 (Host.log (broadcastInDim ⟨2, ![a, 1]⟩ ![0] h1
          (Host.reduceAdd (Host.exp (subf x (broadcastInDim ⟨2, ![a, b]⟩ ![0, 1] h2 (broadcastInDim ⟨2, ![a, 1]⟩ ![0] h1
            (maximumf (broadcastInDim ⟨1, ![a]⟩ ![] h0 (constant (F := Ideal) ⟨0, ![]⟩ .f32 0xFF800000#32))
              (Host.reduce FloatOps.maximumf x (constant (F := Ideal) ⟨0, ![]⟩ .f32 0xFF800000#32) hr' hu))))))
            (constant (F := Ideal) ⟨0, ![]⟩ .f32 0x00000000#32) hr' hu)))) (ix2 p q)
    = (x (ix2 p q) - (Finset.univ : Finset (Fin b)).fold max (Ideal.ofBits .f32 0xFF800000#32) fun d => x (ix2 p d))
      - Ideal.log (∑ d : Fin b, Ideal.exp (x (ix2 p d)
          - (Finset.univ : Finset (Fin b)).fold max (Ideal.ofBits .f32 0xFF800000#32) fun d => x (ix2 p d))) := by
  have hlift : ∀ d : Fin b, hr.lift (ix1 p) d = ix2 p d := fun d =>
    funext fun c => Fin.ext (by match c with | ⟨0, _⟩ => rfl | ⟨1, _⟩ => rfl)
  have em : maximumf (broadcastInDim ⟨1, ![a]⟩ ![] h0 (constant (F := Ideal) ⟨0, ![]⟩ .f32 0xFF800000#32))
        (Host.reduce FloatOps.maximumf x (constant (F := Ideal) ⟨0, ![]⟩ .f32 0xFF800000#32) hr' hu) (ix1 p)
      = (Finset.univ : Finset (Fin b)).fold max (Ideal.ofBits .f32 0xFF800000#32) fun d => x (ix2 p d) := by
    show max (broadcastInDim ⟨1, ![a]⟩ ![] h0 (constant (F := Ideal) ⟨0, ![]⟩ .f32 0xFF800000#32) (ix1 p))
        (Host.reduce FloatOps.maximumf x (constant (F := Ideal) ⟨0, ![]⟩ .f32 0xFF800000#32) hr' hu (ix1 p)) = _
    rw [broadcastInDim_apply _ h0 _ (ix1 p) ix0 (fun ax => ax.elim0),
      Host.reduce_eq_fold_single FloatOps.maximumf x _ hr' hr hu (ix1 p)]
    show max (Ideal.ofBits .f32 0xFF800000#32)
        ((Finset.univ : Finset (Fin b)).fold max (Ideal.ofBits .f32 0xFF800000#32) (x ∘ hr.lift (ix1 p))) = _
    rw [max_negInf]
    exact congrArg (Finset.fold max (Ideal.ofBits .f32 0xFF800000#32) · Finset.univ) (funext fun d => congrArg x (hlift d))
  have e1 : ∀ d : Fin b, broadcastInDim ⟨2, ![a, b]⟩ ![0, 1] h2 (broadcastInDim ⟨2, ![a, 1]⟩ ![0] h1
        (maximumf (broadcastInDim ⟨1, ![a]⟩ ![] h0 (constant (F := Ideal) ⟨0, ![]⟩ .f32 0xFF800000#32))
          (Host.reduce FloatOps.maximumf x (constant (F := Ideal) ⟨0, ![]⟩ .f32 0xFF800000#32) hr' hu))) (ix2 p d)
      = (Finset.univ : Finset (Fin b)).fold max (Ideal.ofBits .f32 0xFF800000#32) fun d => x (ix2 p d) := fun d =>
    (keep_host_apply _ h1 h2 p d).trans em
  have e2 : broadcastInDim ⟨2, ![a, b]⟩ ![0, 1] h2 (Host.log (broadcastInDim ⟨2, ![a, 1]⟩ ![0] h1
        (Host.reduceAdd (Host.exp (subf x (broadcastInDim ⟨2, ![a, b]⟩ ![0, 1] h2 (broadcastInDim ⟨2, ![a, 1]⟩ ![0] h1
          (maximumf (broadcastInDim ⟨1, ![a]⟩ ![] h0 (constant (F := Ideal) ⟨0, ![]⟩ .f32 0xFF800000#32))
            (Host.reduce FloatOps.maximumf x (constant (F := Ideal) ⟨0, ![]⟩ .f32 0xFF800000#32) hr' hu))))))
          (constant (F := Ideal) ⟨0, ![]⟩ .f32 0x00000000#32) hr' hu))) (ix2 p q)
      = Ideal.log (∑ d : Fin b, Ideal.exp (x (ix2 p d)
          - (Finset.univ : Finset (Fin b)).fold max (Ideal.ofBits .f32 0xFF800000#32) fun d => x (ix2 p d))) := by
    refine (broadcastInDim_a1_ab_apply _ h2 p q).trans ?_
    refine (congrArg Ideal.log (broadcastInDim_a_a1_apply _ h1 p 0)).trans ?_
    refine congrArg Ideal.log ?_
    simp only [Host.reduceAdd, Ideal.hostReduceAdd_def]
    rw [Ideal.hostReduceAdd_single hr' hr]
    show Ideal.ofBits .f32 0x00000000#32 + _ = _
    rw [Ideal.ofBits_zero_f32, zero_add]
    refine Finset.sum_congr rfl fun d _ => ?_
    rw [hlift d]
    show Ideal.exp (x (ix2 p d) - _) = _
    rw [e1 d]
  show (x (ix2 p q) - _) - _ = _
  rw [e1 q, e2]

end Cert.LibLogSoftmax

end
-- ==== Proof.BodyValue.lean ====
/-
  The kernel body's two stored values, read entry by entry over the extended reals.

  * The scores block: entry (p, q) is the expanded spelling of minus the distance between row p of the input block
    (shifted) and column q of the prototypes, the column's sum of squares taken from the one-row operand.
  * The per-row column: entry (p, ·) is the maximum of row p of the scores block plus the logarithm of the sum of the
    row's exponentials shifted by that maximum.
-/
import proofs.«108930_j68642167325149_2_alg».proof.Proof.Gen.KernelIdeal.Skeleton
import proofs.«108930_j68642167325149_2_alg».proof.Proof.Spec
import proofs.«108930_j68642167325149_2_alg».proof.Proof.LibLogSoftmax
import Idealize.ShloMosaic.Lib.ValueLayout
import Idealize.ShloMosaic.Lib.Pipeline.Value

noncomputable section

namespace Cert.KernelIdeal.BodyValue

open Cert.KernelIdeal Cert.KernelIdeal.Gen Idealize.ShloMosaic Idealize.ShloMosaic.ValueIdx Cert.Spec
open Cert.LibColumn Cert.LibLastAxis Cert.LibRowMax Cert.LibLogSoftmax

/-- The scores block at (p, q). -/
theorem pay1_apply (v0 : Vec Ideal S1024x128 .f32) (v6 : Vec Ideal S128x512 .f32) (v7 : Vec Ideal S1x512 .f32)
    (p : Fin 1024) (q : Fin 512) :
    k0_pay1 v0 v6 v7 (ix2 p q) = kscore (fun d => v0 (ix2 p d)) (fun d => v6 (ix2 d q)) (v7 (ix2 (0 : Fin 1) q)) := by
  have hA : broadcastTo S1024x512 (shapeCast S1024x1 (multiReduction .add [1] S1024
        (mulf (addf v0 (broadcast S1024x128 (Scalar.ofBits .f32 0x358637BD#32 : Ideal .f32)))
          (addf v0 (broadcast S1024x128 (Scalar.ofBits .f32 0x358637BD#32 : Ideal .f32))))
        0x00000000#32 reduces_S1024x128_S1024 (.inl rfl) rfl) shapeCasts_S1024_S1024x1) broadcasts_S1024x1_S1024x512 (ix2 p q)
      = ∑ d : Fin 128, (v0 (ix2 p d) + E) * (v0 (ix2 p d) + E) :=
    (keep_vector_apply _ shapeCasts_S1024_S1024x1 broadcasts_S1024x1_S1024x512 p q).trans
      (sum_last_apply _ reduces_S1024x128_S1024 (.inl rfl) rfl p)
  have hC : matmul dot_S1024x128_S128x512_S1024x512_1_0_0_1_n_n none
        (truncf .bf16 (addf v0 (broadcast S1024x128 (Scalar.ofBits .f32 0x358637BD#32 : Ideal .f32))) bitsLt_bf16_f32)
        (truncf .bf16 v6 bitsLt_bf16_f32) (constant S1024x512 .f32 0x00000000#32) (ix2 p q)
      = ∑ d : Fin 128, (v0 (ix2 p d) + E) * v6 (ix2 d q) :=
    matmul_plain_apply dot_S1024x128_S128x512_S1024x512_1_0_0_1_n_n_wf none _ _ p q
  have hB : broadcastTo S1024x512 (shapeCast S1x512 v7 shapeCasts_S1x512_S1x512) broadcasts_S1x512_S1024x512 (ix2 p q)
      = v7 (ix2 (0 : Fin 1) q) := by
    rw [shapeCast_self]; exact broadcastTo_1b_ab_apply v7 _ p q
  unfold kscore
  show FloatOps.subf (F := Ideal) (φ := .f32) _ (FloatOps.sqrt (FloatOps.maximumf (FloatOps.addf
      (FloatOps.subf
        (broadcastTo S1024x512 (shapeCast S1024x1 (multiReduction .add [1] S1024
          (mulf (addf v0 (broadcast S1024x128 (Scalar.ofBits .f32 0x358637BD#32 : Ideal .f32)))
            (addf v0 (broadcast S1024x128 (Scalar.ofBits .f32 0x358637BD#32 : Ideal .f32))))
          0x00000000#32 reduces_S1024x128_S1024 (.inl rfl) rfl) shapeCasts_S1024_S1024x1) broadcasts_S1024x1_S1024x512 (ix2 p q))
        (FloatOps.mulf _ (matmul dot_S1024x128_S128x512_S1024x512_1_0_0_1_n_n none
          (truncf .bf16 (addf v0 (broadcast S1024x128 (Scalar.ofBits .f32 0x358637BD#32 : Ideal .f32))) bitsLt_bf16_f32)
          (truncf .bf16 v6 bitsLt_bf16_f32) (constant S1024x512 .f32 0x00000000#32) (ix2 p q))))
      (broadcastTo S1024x512 (shapeCast S1x512 v7 shapeCasts_S1x512_S1x512) broadcasts_S1x512_S1024x512 (ix2 p q))) _)) = _
  rw [hA, hC, hB]
  rfl

/-- The per-row column at (p, u). -/
theorem pay2_apply (v0 : Vec Ideal S1024x128 .f32) (v6 : Vec Ideal S128x512 .f32) (v7 : Vec Ideal S1x512 .f32)
    (p : Fin 1024) (u : Fin 1) :
    k0_pay2 v0 v6 v7 (ix2 p u)
      = rowMax (fun k => k0_pay1 v0 v6 v7 (ix2 p k)) + rowLog (fun k => k0_pay1 v0 v6 v7 (ix2 p k)) := by
  have hM : ∀ u' : Fin 1, shapeCast S1024x1 (multiReduction .maximumf [1] S1024 (k0_pay1 v0 v6 v7) 0xFF800000#32
        reduces_S1024x512_S1024 (.inl rfl) rfl) shapeCasts_S1024_S1024x1 (ix2 p u')
      = rowMax (fun k => k0_pay1 v0 v6 v7 (ix2 p k)) := fun u' =>
    (shapeCast_a_a1_apply _ shapeCasts_S1024_S1024x1 p u').trans
      (max_last_apply (k0_pay1 v0 v6 v7) 0xFF800000#32 reduces_S1024x512_S1024 (.inl rfl) rfl p)
  have hS : shapeCast S1024x1 (multiReduction .add [1] S1024
        (exp (subf (k0_pay1 v0 v6 v7) (broadcastTo S1024x512 (shapeCast S1024x1 (multiReduction .maximumf [1] S1024
          (k0_pay1 v0 v6 v7) 0xFF800000#32 reduces_S1024x512_S1024 (.inl rfl) rfl) shapeCasts_S1024_S1024x1)
          broadcasts_S1024x1_S1024x512)))
        0x00000000#32 reduces_S1024x512_S1024 (.inl rfl) rfl) shapeCasts_S1024_S1024x1 (ix2 p u)
      = ∑ k : Fin 512, Ideal.exp (k0_pay1 v0 v6 v7 (ix2 p k) - rowMax (fun k => k0_pay1 v0 v6 v7 (ix2 p k))) := by
    refine (shapeCast_a_a1_apply _ shapeCasts_S1024_S1024x1 p u).trans
      ((sum_last_apply _ reduces_S1024x512_S1024 (.inl rfl) rfl p).trans (Finset.sum_congr rfl fun k _ => ?_))
    show Ideal.exp (k0_pay1 v0 v6 v7 (ix2 p k) - broadcastTo S1024x512 _ broadcasts_S1024x1_S1024x512 (ix2 p k)) = _
    rw [broadcastTo_a1_ab_apply, hM]
  unfold rowLog
  show FloatOps.addf (F := Ideal) (φ := .f32)
      (shapeCast S1024x1 (multiReduction .maximumf [1] S1024 (k0_pay1 v0 v6 v7) 0xFF800000#32
        reduces_S1024x512_S1024 (.inl rfl) rfl) shapeCasts_S1024_S1024x1 (ix2 p u))
      (FloatOps.log (shapeCast S1024x1 (multiReduction .add [1] S1024
        (exp (subf (k0_pay1 v0 v6 v7) (broadcastTo S1024x512 (shapeCast S1024x1 (multiReduction .maximumf [1] S1024
          (k0_pay1 v0 v6 v7) 0xFF800000#32 reduces_S1024x512_S1024 (.inl rfl) rfl) shapeCasts_S1024_S1024x1)
          broadcasts_S1024x1_S1024x512)))
        0x00000000#32 reduces_S1024x512_S1024 (.inl rfl) rfl) shapeCasts_S1024_S1024x1 (ix2 p u))) = _
  rw [hM, hS]
  rfl

end Cert.KernelIdeal.BodyValue

end
-- ==== Proof.KernelArrays.lean ====
/-
  From blocks to arrays. The grid has four points; point t reads rows 1024·t … 1024·t + 1023 of the input, the whole
  prototype matrix and the whole one-row array of column sums of squares (written on the host before the launch), and
  writes rows 1024·t … of both results. Every entry of a result therefore lies in exactly the block of the point
  that owns its row, and the result arrays end as ONE function of the argument arrays: the scores in the expanded
  spelling, and per row the maximum plus the log-sum of that row of the scores.
-/
import proofs.«108930_j68642167325149_2_alg».proof.Proof.Gen.KernelIdeal.Frame
import proofs.«108930_j68642167325149_2_alg».proof.Proof.BodyValue
import Idealize.ShloMosaic.Lib.Pipeline.Value
import Idealize.ShloMosaic.Lib.StableHlo.Run
import Idealize.ShloMosaic.PureOps.Ideal.Laws

set_option maxRecDepth 16384

noncomputable section

namespace Cert.KernelIdeal.Arrays

open Cert.KernelIdeal Cert.KernelIdeal.Gen Idealize.ShloMosaic Idealize.ShloMosaic.TcCoe Idealize.ShloMosaic.ValueIdx
open Idealize.SL.Sem Idealize.ShloMosaic.StableHlo Cert.Spec Cert.KernelIdeal.BodyValue Cert.LibRowMax

variable (m : (ℓ : Loc nD τ sig) → Buf (Elt Ideal) ℓ)

theorem hz : (![0, 0] : Fin 2 → Nat) = fun _ => 0 := funext fun a => by fin_cases a <;> rfl

/-- The printed index maps over the grid: the row-tiled windows sit at block (t, 0), the resident ones at (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 ∧ t.val < 4 :=
  (by decide +kernel : ∀ t : Fin grid0.N, _)

/-- The point that owns a row. -/
theorem idx_onto : ∀ b : Fin 4, ∃ t : Fin cfg0.N, t.val = b.val :=
  (by decide +kernel : ∀ b : Fin 4, ∃ t : Fin grid0.N, t.val = b.val)

/-! ## The arrays as the region finds them -/

/-- The one-row array of column sums of squares, written on the host before the launch. -/
theorem V_sqb (c : Dev nD) : (V m c main_v2 : S1x512.Idx → EReal)
    = broadcastInDim S1x512 ![1] bcast_S512_S1x512_1
        (Host.reduceAdd (mulf (m ((c : Thread nD τ).loc main_arg2)) (m ((c : Thread nD τ).loc main_arg2)))
          (constant (F := Ideal) S_ .f32 0x00000000#32) reducesTo_S128x512_S512_d0 h_S_) := by
  show StableHlo.after hostOps0 (fun b => m (c, b)) (Proc.devRef .tc main_v2) = _
  after_results

/-- Read at column q: zero plus the sum of the column's squares. -/
theorem V_sqb_apply (c : Dev nD) (u : Fin 1) (q : Fin 512) :
    (V m c main_v2 : S1x512.Idx → EReal) (ix2 u q)
      = sqcol (fun d => (m ((c : Thread nD τ).loc main_arg2) : S128x512.Idx → EReal) (ix2 d q)) := by
  rw [V_sqb, broadcastInDim_b_1b_apply]
  simp only [Host.reduceAdd, Ideal.hostReduceAdd_def]
  rw [Ideal.hostReduceAdd_single reducesTo_S128x512_S512_d0 (by decide : S128x512.Reduces [0] S512)]
  unfold sqcol
  refine congrArg (_ + ·) (Finset.sum_congr rfl fun d _ => ?_)
  have hl : Shape.Reduces.lift (by decide : S128x512.Reduces [0] S512) (ix1 q) d = ix2 d q := lift_first _ q d
  show FloatOps.mulf (F := Ideal) (φ := .f32)
      ((m ((c : Thread nD τ).loc main_arg2) : S128x512.Idx → EReal) (Shape.Reduces.lift (by decide : S128x512.Reduces [0] S512) (ix1 q) d))
      ((m ((c : Thread nD τ).loc main_arg2) : S128x512.Idx → EReal) (Shape.Reduces.lift (by decide : S128x512.Reduces [0] S512) (ix1 q) d)) = _
  rw [hl]
  rfl

/-- The three input blocks at point t, entry by entry. -/
theorem iblk0_apply (c : Dev nD) (t : Fin cfg0.N) (y : S1024x128.Idx) (k : S4096x128.Idx)
    (hk0 : (k 0).val = 1024 * t.val + (y 0).val) (hk1 : (k 1).val = (y 1).val) :
    (iblk m c 0 t : Vec Ideal S1024x128 .f32) y = (m ((c : Thread nD τ).loc main_arg0) : S4096x128.Idx → EReal) k := by
  obtain ⟨e0, e1, -⟩ := idx_facts t
  unfold iblk
  rw [View.read_apply]
  show V m c main_arg0 _ = _
  rw [V_main_arg0]
  congr 1
  funext a
  apply Fin.ext
  match a with
  | ⟨0, _⟩ => show win0_0.index t (0 : Fin 2) * 1024 + 1 * (y 0).val = (k 0).val; rw [e0, hk0]; omega
  | ⟨1, _⟩ => show win0_0.index t (1 : Fin 2) * 128 + 1 * (y 1).val = (k 1).val; rw [e1, hk1]; omega

theorem iblk1_apply (c : Dev nD) (t : Fin cfg0.N) (y : S128x512.Idx) :
    (iblk m c 1 t : Vec Ideal S128x512 .f32) y = (m ((c : Thread nD τ).loc main_arg2) : S128x512.Idx → EReal) y := by
  obtain ⟨-, -, e0, e1, -⟩ := idx_facts t
  unfold iblk
  rw [View.read_apply]
  show V m c main_arg2 _ = _
  rw [V_main_arg2]
  congr 1
  funext a
  apply Fin.ext
  match a with
  | ⟨0, _⟩ => show win0_1.index t (0 : Fin 2) * 128 + 1 * (y 0).val = (y 0).val; rw [e0]; omega
  | ⟨1, _⟩ => show win0_1.index t (1 : Fin 2) * 512 + 1 * (y 1).val = (y 1).val; rw [e1]; omega

theorem iblk2_apply (c : Dev nD) (t : Fin cfg0.N) (y : S1x512.Idx) :
    (iblk m c 2 t : Vec Ideal S1x512 .f32) y = (V m c main_v2 : S1x512.Idx → EReal) y := by
  obtain ⟨-, -, -, -, e0, e1, -⟩ := idx_facts t
  unfold iblk
  rw [View.read_apply]
  show V m c main_v2 _ = _
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 512 + 1 * (y 1).val = (y 1).val; rw [e1]; omega

/-! ## One block entry is the whole-array function at the entry's place -/

/-- The scores block of point t at (p, q) is the scores function at (1024·t + p, q). -/
theorem block_scores (c : Dev nD) (t : Fin cfg0.N) (p : Fin 1024) (q : Fin 512) (i : S4096x512.Idx)
    (hi0 : (i 0).val = 1024 * t.val + p.val) (hi1 : (i 1).val = q.val) :
    k0_pay1 (iblk m c 0 t) (iblk m c 1 t) (iblk m c 2 t) (ix2 p q)
      = kscores (m ((c : Thread nD τ).loc main_arg0)) (m ((c : Thread nD τ).loc main_arg2)) i := by
  rw [pay1_apply (iblk m c 0 t) (iblk m c 1 t) (iblk m c 2 t) p q]
  unfold kscores
  have hq : colOf i = q := Fin.ext hi1
  rw [hq]
  have h0 : (fun d : Fin 128 => (iblk m c 0 t : Vec Ideal S1024x128 .f32) (ix2 p d))
      = fun d => (m ((c : Thread nD τ).loc main_arg0) : S4096x128.Idx → EReal) (ix2 (rowOf i) d) :=
    funext fun d => iblk0_apply m c t (ix2 p d) (ix2 (rowOf i) d) hi0 rfl
  have h1 : (fun d : Fin 128 => (iblk m c 1 t : Vec Ideal S128x512 .f32) (ix2 d q))
      = fun d => (m ((c : Thread nD τ).loc main_arg2) : S128x512.Idx → EReal) (ix2 d q) :=
    funext fun d => iblk1_apply m c t (ix2 d q)
  have h2 : (iblk m c 2 t : Vec Ideal S1x512 .f32) (ix2 (0 : Fin 1) q)
      = sqcol (fun d => (m ((c : Thread nD τ).loc main_arg2) : S128x512.Idx → EReal) (ix2 d q)) :=
    (iblk2_apply m c t (ix2 (0 : Fin 1) q)).trans (V_sqb_apply m c 0 q)
  rw [h0, h1, h2]

/-- The per-row block of point t at (p, u) is the row function at row 1024·t + p. -/
theorem block_lse (c : Dev nD) (t : Fin cfg0.N) (p : Fin 1024) (u : Fin 1) (j : S4096x1.Idx)
    (hj0 : (j 0).val = 1024 * t.val + p.val) :
    k0_pay2 (iblk m c 0 t) (iblk m c 1 t) (iblk m c 2 t) (ix2 p u)
      = lse (kscores (m ((c : Thread nD τ).loc main_arg0)) (m ((c : Thread nD τ).loc main_arg2))) j := by
  rw [pay2_apply (iblk m c 0 t) (iblk m c 1 t) (iblk m c 2 t) p u]
  unfold lse
  have hrow : (fun k : Fin 512 => k0_pay1 (iblk m c 0 t) (iblk m c 1 t) (iblk m c 2 t) (ix2 p k))
      = fun k => kscores (m ((c : Thread nD τ).loc main_arg0)) (m ((c : Thread nD τ).loc main_arg2)) (ix2 (rowOf j) k) :=
    funext fun k => block_scores m c t p k (ix2 (rowOf j) k) hj0 rfl
  rw [hrow]

/-! ## What each point writes back, and the arrays after the run -/

theorem flushed3_eq (c : Dev nD) (t : Fin cfg0.N) :
    (dats m 0 c).flushed 3 t = ((cfg0.win 3).blk t).view.read (Elt Ideal)
      (kscores (m ((c : Thread nD τ).loc main_arg0)) (m ((c : Thread nD τ).loc main_arg2))) := by
  show (cfg0.win 3).cut (grid0.coords t) ((dats m 0 c).after 3 t) = _
  rw [after0_3]
  unfold out0_3
  rw [View.canon_unit_zero hz]
  simp only [View.ld_unit_zero (S := S1024x128) hz, View.ld_unit_zero (S := S128x512) hz, View.ld_unit_zero (S := S1x512) hz]
  obtain ⟨-, -, -, -, -, -, e0, e1, -⟩ := idx_facts t
  funext y
  show k0_pay1 (iblk m c 0 t) (iblk m c 1 t) (iblk m c 2 t) y
    = kscores (m ((c : Thread nD τ).loc main_arg0)) (m ((c : Thread nD τ).loc main_arg2)) (((cfg0.win 3).blk t).view.emb y)
  have hy : (y : S1024x512.Idx) = ix2 (y 0) (y 1) := eq_ix2 (n0 := 1024) (n1 := 512) y
  rw [hy]
  refine block_scores m c t (y 0) (y 1) _ ?_ ?_
  · show win0_3.index t (0 : Fin 2) * 1024 + 1 * (y 0).val = 1024 * t.val + (y 0).val; rw [e0]; omega
  · show win0_3.index t (1 : Fin 2) * 512 + 1 * (y 1).val = (y 1).val; rw [e1]; omega

theorem flushed4_eq (c : Dev nD) (t : Fin cfg0.N) :
    (dats m 0 c).flushed 4 t = ((cfg0.win 4).blk t).view.read (Elt Ideal)
      (lse (kscores (m ((c : Thread nD τ).loc main_arg0)) (m ((c : Thread nD τ).loc main_arg2)))) := by
  show (cfg0.win 4).cut (grid0.coords t) ((dats m 0 c).after 4 t) = _
  rw [after0_4]
  unfold out0_4
  rw [View.canon_unit_zero hz]
  simp only [View.ld_unit_zero (S := S1024x128) hz, View.ld_unit_zero (S := S128x512) hz, View.ld_unit_zero (S := S1x512) hz]
  obtain ⟨-, -, -, -, -, -, -, -, e0, e1, -⟩ := idx_facts t
  funext y
  show k0_pay2 (iblk m c 0 t) (iblk m c 1 t) (iblk m c 2 t) y
    = lse (kscores (m ((c : Thread nD τ).loc main_arg0)) (m ((c : Thread nD τ).loc main_arg2))) (((cfg0.win 4).blk t).view.emb y)
  have hy : (y : S1024x1.Idx) = ix2 (y 0) (y 1) := eq_ix2 (n0 := 1024) (n1 := 1) y
  rw [hy]
  refine block_lse m c t (y 0) (y 1) _ ?_
  show win0_4.index t (0 : Fin 2) * 1024 + 1 * (y 0).val = 1024 * t.val + (y 0).val; rw [e0]; omega

theorem mem_blk3 (t : Fin cfg0.N) (i : S4096x512.Idx) :
    i ∈ ((cfg0.win 3).blk t).view.set ↔ ∀ a : Fin 2, win0_3.index t a * S1024x512.size a ≤ (i a).val
      ∧ (i a).val < win0_3.index t a * S1024x512.size a + S1024x512.size a := by
  show i ∈ ((View.whole main_v3_0).slice (win0_3.rect t)).set ↔ _
  rw [View.set_slice_whole, Rect.mem_set_unit]
  exact Iff.rfl

theorem mem_blk4 (t : Fin cfg0.N) (i : S4096x1.Idx) :
    i ∈ ((cfg0.win 4).blk t).view.set ↔ ∀ a : Fin 2, win0_4.index t a * S1024x1.size a ≤ (i a).val
      ∧ (i a).val < win0_4.index t a * S1024x1.size a + S1024x1.size a := by
  show i ∈ ((View.whole main_v3_1).slice (win0_4.rect t)).set ↔ _
  rw [View.set_slice_whole, Rect.mem_set_unit]
  exact Iff.rfl

/-- The scores array after the run. -/
theorem final3 (c : Dev nD) : (dats m 0 c).arrAt 3 cfg0.N
    = kscores (m ((c : Thread nD τ).loc main_arg0)) (m ((c : Thread nD τ).loc main_arg2)) :=
  (dats m 0 c).arrAt_eq_of_cover 3 _ (fun t _ => flushed3_eq m c t) fun i => by
    have hi0 : (i 0).val < 4096 := (i 0).isLt
    have hi1 : (i 1).val < 512 := (i 1).isLt
    obtain ⟨t, ht⟩ := idx_onto ⟨(i 0).val / 1024, by omega⟩
    obtain ⟨-, -, -, -, -, -, e0, e1, -⟩ := idx_facts t
    refine ⟨t, flush0_3 t, ?_⟩
    rw [mem_blk3]
    intro a
    have ht' : t.val = (i 0).val / 1024 := ht
    match a with
    | ⟨0, _⟩ => show win0_3.index t (0 : Fin 2) * 1024 ≤ (i 0).val ∧ (i 0).val < win0_3.index t (0 : Fin 2) * 1024 + 1024; rw [e0]; omega
    | ⟨1, _⟩ => show win0_3.index t (1 : Fin 2) * 512 ≤ (i 1).val ∧ (i 1).val < win0_3.index t (1 : Fin 2) * 512 + 512; rw [e1]; omega

/-- The per-row array after the run. -/
theorem final4 (c : Dev nD) : (dats m 0 c).arrAt 4 cfg0.N
    = lse (kscores (m ((c : Thread nD τ).loc main_arg0)) (m ((c : Thread nD τ).loc main_arg2))) :=
  (dats m 0 c).arrAt_eq_of_cover 4 _ (fun t _ => flushed4_eq m c t) fun i => by
    have hi0 : (i 0).val < 4096 := (i 0).isLt
    have hi1 : (i 1).val < 1 := (i 1).isLt
    obtain ⟨t, ht⟩ := idx_onto ⟨(i 0).val / 1024, by omega⟩
    obtain ⟨-, -, -, -, -, -, -, -, e0, e1, -⟩ := idx_facts t
    refine ⟨t, flush0_4 t, ?_⟩
    rw [mem_blk4]
    intro a
    have ht' : t.val = (i 0).val / 1024 := ht
    match a with
    | ⟨0, _⟩ => show win0_4.index t (0 : Fin 2) * 1024 ≤ (i 0).val ∧ (i 0).val < win0_4.index t (0 : Fin 2) * 1024 + 1024; rw [e0]; omega
    | ⟨1, _⟩ => show win0_4.index t (1 : Fin 2) * 1 ≤ (i 1).val ∧ (i 1).val < win0_4.index t (1 : Fin 2) * 1 + 1; rw [e1]; omega

end Cert.KernelIdeal.Arrays

end
-- ==== Proof.LibStretch.lean ====
/-
  Two general facts about a straight line of host operations, for any program.

  * `after_append`: the buffer contents after two stretches of operations run one after the other are the second
    stretch's fold over the first's — so a long line is read back stretch by stretch, each stretch from whatever
    contents it finds.
  * `ofBuf_toBuf`: a value carried to the type of the buffer a typed reference names and back again is the value;
    the operations of an inlined call write and read their buffers through exactly these two transports, so every
    value that passes from one such operation to the next comes through unchanged. (A value that enters such an
    operation from a plain buffer, or leaves the last one, passes ONE transport: it is removed by
    `eq_of_heq (cast_heq _ _)`, the two types being the same once the reference's type is computed.)
-/
import Idealize.ShloMosaic.Lib.StableHlo.Run

noncomputable section

namespace Cert.LibStretch

open Idealize.ShloMosaic Idealize.ShloMosaic.StableHlo

variable {τ : Topo} {sig : RefSig} {Val : EltTy → Type}

/-- Two stretches one after the other. -/
theorem after_append (l1 l2 : List (HloOp τ sig Val)) (V : Valuation τ sig Val) :
    after (l1 ++ l2) V = after l2 (after l1 V) := by
  induction l1 generalizing V with
  | nil => rfl
  | cons a l ih => exact ih _

/-- Contents carried to a buffer's own type and back are the contents. -/
theorem ofBuf_toBuf {T : BufTy} (x : TRef sig T) (v : T.Contents Val) : x.ofBuf (x.toBuf v) = v := by
  obtain ⟨r, h, h1, h2⟩ := x
  subst h
  rfl

end Cert.LibStretch

end
-- ==== Proof.KernelTail.lean ====
/-
  The expanded program after its launch: the labels are placed as a column, one score per row is taken at the row's
  label (the called function's operations in the call's place), and the mean over rows of the per-row column minus
  that entry is formed. Read back in two stretches from the contents the launch leaves, the last result is the
  loss function of Spec applied to the labels and to the two arrays the launch wrote.
-/
import proofs.«108930_j68642167325149_2_alg».proof.Proof.Gen.KernelIdeal.Frame
import proofs.«108930_j68642167325149_2_alg».proof.Proof.Spec
import proofs.«108930_j68642167325149_2_alg».proof.Proof.LibStretch
import Idealize.ShloMosaic.Lib.StableHlo.Run

noncomputable section

namespace Cert.KernelIdeal.Tail

open Cert.KernelIdeal Cert.KernelIdeal.Gen Idealize.ShloMosaic Idealize.ShloMosaic.TcCoe Idealize.SL.Sem
open Idealize.ShloMosaic.StableHlo Cert.Spec Cert.LibStretch

variable (W : Valuation τ sig (Elt Ideal))

/-- The three stretches after the launch as two: the pick, then the mean. -/
theorem tail_split (b : DevRef τ sig) :
    after (List.flatten [(hostOps1 : List (HloOp τ sig (Elt Ideal))), hostOps1_1, hostOps1_2]) W b
      = after hostOps1_2 (after hostOps1_1 (after hostOps1 W)) b := by
  rw [show List.flatten [(hostOps1 : List (HloOp τ sig (Elt Ideal))), hostOps1_1, hostOps1_2]
      = hostOps1 ++ (hostOps1_1 ++ hostOps1_2) from by
        simp only [List.flatten_cons, List.flatten_nil, List.append_nil], StableHlo.after_append, StableHlo.after_append]

/-- The pick, from the labels and the scores it finds. -/
theorem afterC_pick : (after hostOps1_1 (after hostOps1 W) (Proc.devRef .tc main_v5) : S4096x1.Idx → EReal)
    = pick (W (Proc.devRef .tc main_arg1)) (W (Proc.devRef .tc main_v3_0)) := by
  after_results_simp <;> (try simp only [ofBuf_toBuf]) <;> rfl

theorem afterC_keep : after hostOps1_1 (after hostOps1 W) (Proc.devRef .tc main_v3_1) = W (Proc.devRef .tc main_v3_1) := by
  after_results_simp <;> (try simp only [ofBuf_toBuf]) <;> rfl

/-- The mean, from the per-row column and the picked entries it finds. -/
theorem afterD_loss : (after hostOps1_2 W (Proc.devRef .tc main_v8) : S_.Idx → EReal)
    = Host.divf (Host.reduceAdd (subf (W (Proc.devRef .tc main_v3_1)) (W (Proc.devRef .tc main_v5)))
        (constant (F := Ideal) S_ .f32 0x00000000#32) reducesTo_S4096x1_S_d0_1 h_S_) (constant (F := Ideal) S_ .f32 0x45800000#32) := by
  after_results

/-- The last result, from any contents holding the labels and the launch's two arrays. -/
theorem tail_of (lab : IVec SL 32) (A3 : FVec Ideal SS .f32) (A4 : FVec Ideal SC .f32)
    (h1 : (W (Proc.devRef .tc main_arg1) : S4096.Idx → BitVec 32) = lab)
    (h3 : (W (Proc.devRef .tc main_v3_0) : S4096x512.Idx → EReal) = A3)
    (h4 : (W (Proc.devRef .tc main_v3_1) : S4096x1.Idx → EReal) = A4) :
    (after (List.flatten [(hostOps1 : List (HloOp τ sig (Elt Ideal))), hostOps1_1, hostOps1_2]) W (Proc.devRef .tc main_v8) : S_.Idx → EReal)
      = kloss lab A3 A4 := by
  rw [tail_split, afterD_loss, afterC_pick, afterC_keep, h1, h3, h4]
  rfl

variable (m : (ℓ : Loc nD τ sig) → Buf (Elt Ideal) ℓ)

/-- The loss the frame run's post names. -/
theorem tail_loss (c : Dev nD) :
    (Pipeline.afterTail₀ cfgs (dats m) 0 (V0 m) [hostOps1, hostOps1_1, hostOps1_2] c main_v8 : S_.Idx → EReal)
      = kloss (m ((c : Thread nD τ).loc main_arg1)) ((dats m 0 c).arrAt 3 cfg0.N) ((dats m 0 c).arrAt 4 cfg0.N) := by
  unfold Pipeline.afterTail₀
  exact tail_of _ _ _ _
    ((Pipeline.withArrays_of_ne _ c (V0 m c) _ main_arg1 (by exact (by decide : ∀ w, Pipeline.arrRef spec0 w ≠ main_arg1))).trans (V_main_arg1 m c))
    (Pipeline.withArrays_arr spec0 launch0.win.arr_inj c _ _ 3)
    (Pipeline.withArrays_arr spec0 launch0.win.arr_inj c _ _ 4)

end Cert.KernelIdeal.Tail

end
-- ==== Proof.KernelRun.lean ====
/-
  The expanded program's run with both results named: the scores array is the expanded spelling of minus the distances,
  and the loss is the mean, over rows, of (row maximum + log-sum of that row of the scores) minus the score picked at
  the row's label. The arguments end unchanged.
-/
import proofs.«108930_j68642167325149_2_alg».proof.Proof.KernelArrays
import proofs.«108930_j68642167325149_2_alg».proof.Proof.KernelTail

noncomputable section

namespace Cert.KernelIdeal.Run

open Cert.KernelIdeal Cert.KernelIdeal.Gen Idealize.ShloMosaic Idealize.ShloMosaic.TcCoe Idealize.SL.Sem Cert.Spec
open Cert.KernelIdeal.Arrays Cert.KernelIdeal.Tail

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3_0)
        = kscores (m ((c.tc : Thread nD τ).loc main_arg0)) (m ((c.tc : Thread nD τ).loc main_arg2))
      ∧ r.2.mem ((c.tc : Thread nD τ).loc main_v8)
        = kloss (m ((c.tc : Thread nD τ).loc main_arg1))
            (kscores (m ((c.tc : Thread nD τ).loc main_arg0)) (m ((c.tc : Thread nD τ).loc main_arg2)))
            (lse (kscores (m ((c.tc : Thread nD τ).loc main_arg0)) (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 3).trans (final3 m c),
      ((h c).2 main_v8 (Pipeline.mem_restRefs_of main_v8 (by decide) (by decide))).trans
        ((tail_loss m c).trans (by rw [final3, final4])),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c)))⟩)
    (run_main m ρ)

end Cert.KernelIdeal.Run

end
-- ==== Proof.RefScores.lean ====
/-
  The direct program's scores term read entry by entry: the input and the prototypes are each given a unit axis and
  spread to [4096, 128, 512], so that entry (n, d, k) of their difference is x_nd - w_dk; the shift is added, the
  square taken, and the middle axis summed from zero — entry (n, k) of the result is minus the root of
  0 + Σ_d ((x_nd - w_dk) + e)². The log-softmax that follows is the host's row-wise one, read by the general lemma.
-/
import proofs.«108930_j68642167325149_2_alg».proof.Proof.Gen.ReferenceIdeal
import proofs.«108930_j68642167325149_2_alg».proof.Proof.Spec
import proofs.«108930_j68642167325149_2_alg».proof.Proof.LibLogSoftmax
import Idealize.ShloMosaic.Lib.Pipeline.Value
import Idealize.ShloMosaic.PureOps.Ideal.Laws

noncomputable section

namespace Cert.ReferenceIdeal.RefScores

open Cert.ReferenceIdeal Cert.ReferenceIdeal.Gen Idealize.ShloMosaic Idealize.ShloMosaic.ValueIdx Cert.Spec

/-- The input spread over the prototypes' axis reads the input at (row, feature). -/
theorem spread_x (X : FVec Ideal S4096x128 .f32) (j : S4096x128x512.Idx) :
    broadcastInDim S4096x128x512 ![0, 1, 2] bcast_S4096x128x1_S4096x128x512_0_1_2
        (broadcastInDim S4096x128x1 ![0, 1] bcast_S4096x128_S4096x128x1_0_1 X) j
      = X (ix2 ⟨(j 0).val, (j 0).isLt⟩ ⟨(j 1).val, (j 1).isLt⟩) := by
  refine (broadcastInDim_apply _ bcast_S4096x128x1_S4096x128x512_0_1_2 _ j
    (fun a => match a with
      | ⟨0, _⟩ => ⟨(j 0).val, (j 0).isLt⟩ | ⟨1, _⟩ => ⟨(j 1).val, (j 1).isLt⟩ | ⟨2, _⟩ => ⟨0, Nat.one_pos⟩)
    (fun a => match a with
      | ⟨0, _⟩ => by show (j 0).val = if (4096 : Nat) = 1 then 0 else (j 0).val; rw [if_neg (by decide)]
      | ⟨1, _⟩ => by show (j 1).val = if (128 : Nat) = 1 then 0 else (j 1).val; rw [if_neg (by decide)]
      | ⟨2, _⟩ => by show 0 = if (1 : Nat) = 1 then 0 else (j 2).val; rw [if_pos rfl])).trans ?_
  exact broadcastInDim_apply _ bcast_S4096x128_S4096x128x1_0_1 X _ _ (fun a => match a with
    | ⟨0, _⟩ => by show (j 0).val = if (4096 : Nat) = 1 then 0 else (j 0).val; rw [if_neg (by decide)]
    | ⟨1, _⟩ => by show (j 1).val = if (128 : Nat) = 1 then 0 else (j 1).val; rw [if_neg (by decide)])

/-- The prototypes spread over the rows read the prototypes at (feature, prototype). -/
theorem spread_w (Wt : FVec Ideal S128x512 .f32) (j : S4096x128x512.Idx) :
    broadcastInDim S4096x128x512 ![0, 1, 2] bcast_S1x128x512_S4096x128x512_0_1_2
        (broadcastInDim S1x128x512 ![1, 2] bcast_S128x512_S1x128x512_1_2 Wt) j
      = Wt (ix2 ⟨(j 1).val, (j 1).isLt⟩ ⟨(j 2).val, (j 2).isLt⟩) := by
  refine (broadcastInDim_apply _ bcast_S1x128x512_S4096x128x512_0_1_2 _ j
    (fun a => match a with
      | ⟨0, _⟩ => ⟨0, Nat.one_pos⟩ | ⟨1, _⟩ => ⟨(j 1).val, (j 1).isLt⟩ | ⟨2, _⟩ => ⟨(j 2).val, (j 2).isLt⟩)
    (fun a => match a with
      | ⟨0, _⟩ => by show 0 = if (1 : Nat) = 1 then 0 else (j 0).val; rw [if_pos rfl]
      | ⟨1, _⟩ => by show (j 1).val = if (128 : Nat) = 1 then 0 else (j 1).val; rw [if_neg (by decide)]
      | ⟨2, _⟩ => by show (j 2).val = if (512 : Nat) = 1 then 0 else (j 2).val; rw [if_neg (by decide)])).trans ?_
  exact broadcastInDim_apply _ bcast_S128x512_S1x128x512_1_2 Wt _ _ (fun a => match a with
    | ⟨0, _⟩ => by show (j 1).val = if (128 : Nat) = 1 then 0 else (j 1).val; rw [if_neg (by decide)]
    | ⟨1, _⟩ => by show (j 2).val = if (512 : Nat) = 1 then 0 else (j 2).val; rw [if_neg (by decide)])

/-- The shift spread everywhere reads the shift. -/
theorem spread_e (j : S4096x128x512.Idx) :
    broadcastInDim S4096x128x512 ![] bcast_S_S4096x128x512 (constant (F := Ideal) S_ .f32 0x358637BD#32) j = E :=
  broadcastInDim_apply _ bcast_S_S4096x128x512 _ j ix0 (fun a => a.elim0)

/-- One summand: the squared shifted difference at (n, d, k). -/
theorem summand (X : FVec Ideal S4096x128 .f32) (Wt : FVec Ideal S128x512 .f32) (j : S4096x128x512.Idx) :
    mulf (addf (subf
          (broadcastInDim S4096x128x512 ![0, 1, 2] bcast_S4096x128x1_S4096x128x512_0_1_2 (broadcastInDim S4096x128x1 ![0, 1] bcast_S4096x128_S4096x128x1_0_1 X))
          (broadcastInDim S4096x128x512 ![0, 1, 2] bcast_S1x128x512_S4096x128x512_0_1_2 (broadcastInDim S1x128x512 ![1, 2] bcast_S128x512_S1x128x512_1_2 Wt)))
          (broadcastInDim S4096x128x512 ![] bcast_S_S4096x128x512 (constant (F := Ideal) S_ .f32 0x358637BD#32)))
        (addf (subf
          (broadcastInDim S4096x128x512 ![0, 1, 2] bcast_S4096x128x1_S4096x128x512_0_1_2 (broadcastInDim S4096x128x1 ![0, 1] bcast_S4096x128_S4096x128x1_0_1 X))
          (broadcastInDim S4096x128x512 ![0, 1, 2] bcast_S1x128x512_S4096x128x512_0_1_2 (broadcastInDim S1x128x512 ![1, 2] bcast_S128x512_S1x128x512_1_2 Wt)))
          (broadcastInDim S4096x128x512 ![] bcast_S_S4096x128x512 (constant (F := Ideal) S_ .f32 0x358637BD#32))) j
      = ((X (ix2 ⟨(j 0).val, (j 0).isLt⟩ ⟨(j 1).val, (j 1).isLt⟩) - Wt (ix2 ⟨(j 1).val, (j 1).isLt⟩ ⟨(j 2).val, (j 2).isLt⟩)) + E)
        * ((X (ix2 ⟨(j 0).val, (j 0).isLt⟩ ⟨(j 1).val, (j 1).isLt⟩) - Wt (ix2 ⟨(j 1).val, (j 1).isLt⟩ ⟨(j 2).val, (j 2).isLt⟩)) + E) := by
  have hx := spread_x X j
  have hw := spread_w Wt j
  have he := spread_e j
  show ((broadcastInDim S4096x128x512 ![0, 1, 2] bcast_S4096x128x1_S4096x128x512_0_1_2 (broadcastInDim S4096x128x1 ![0, 1] bcast_S4096x128_S4096x128x1_0_1 X) j
      - broadcastInDim S4096x128x512 ![0, 1, 2] bcast_S1x128x512_S4096x128x512_0_1_2 (broadcastInDim S1x128x512 ![1, 2] bcast_S128x512_S1x128x512_1_2 Wt) j)
      + broadcastInDim S4096x128x512 ![] bcast_S_S4096x128x512 (constant (F := Ideal) S_ .f32 0x358637BD#32) j)
    * ((broadcastInDim S4096x128x512 ![0, 1, 2] bcast_S4096x128x1_S4096x128x512_0_1_2 (broadcastInDim S4096x128x1 ![0, 1] bcast_S4096x128_S4096x128x1_0_1 X) j
      - broadcastInDim S4096x128x512 ![0, 1, 2] bcast_S1x128x512_S4096x128x512_0_1_2 (broadcastInDim S1x128x512 ![1, 2] bcast_S128x512_S1x128x512_1_2 Wt) j)
      + broadcastInDim S4096x128x512 ![] bcast_S_S4096x128x512 (constant (F := Ideal) S_ .f32 0x358637BD#32) j) = _
  rw [hx, hw, he]

/-- Minus the root of the middle-axis sum from zero, for any summand array. -/
theorem negsqrt_sum (T : FVec Ideal S4096x128x512 .f32) (i : S4096x512.Idx) :
    Host.negf (Host.sqrt (Host.reduceAdd T (constant (F := Ideal) S_ .f32 0x00000000#32) reducesTo_S4096x128x512_S4096x512_d1 h_S_)) i
      = -(Ideal.sqrt (Z + ∑ d : Fin 128, T (fun a => match a with
          | ⟨0, _⟩ => ⟨(i 0).val, (i 0).isLt⟩ | ⟨1, _⟩ => ⟨d.val, d.isLt⟩ | ⟨2, _⟩ => ⟨(i 1).val, (i 1).isLt⟩))) := by
  show -(Ideal.sqrt (Host.reduceAdd T (constant (F := Ideal) S_ .f32 0x00000000#32) reducesTo_S4096x128x512_S4096x512_d1 h_S_ i)) = _
  simp only [Host.reduceAdd, Ideal.hostReduceAdd_def]
  rw [Ideal.hostReduceAdd_single reducesTo_S4096x128x512_S4096x512_d1 (by decide : S4096x128x512.Reduces [1] S4096x512)]
  refine congrArg (fun s => -(Ideal.sqrt (_ + s))) (Finset.sum_congr rfl fun d _ => ?_)
  exact congrArg T (funext fun a => Fin.ext (by match a with | ⟨0, _⟩ => rfl | ⟨1, _⟩ => rfl | ⟨2, _⟩ => rfl))

/-- THE SCORES TERM IS THE DIRECT SPELLING. -/
theorem scores_eq (X : FVec Ideal S4096x128 .f32) (Wt : FVec Ideal S128x512 .f32) :
    Host.negf (Host.sqrt (Host.reduceAdd (mulf (addf (subf
          (broadcastInDim S4096x128x512 ![0, 1, 2] bcast_S4096x128x1_S4096x128x512_0_1_2 (broadcastInDim S4096x128x1 ![0, 1] bcast_S4096x128_S4096x128x1_0_1 X))
          (broadcastInDim S4096x128x512 ![0, 1, 2] bcast_S1x128x512_S4096x128x512_0_1_2 (broadcastInDim S1x128x512 ![1, 2] bcast_S128x512_S1x128x512_1_2 Wt)))
          (broadcastInDim S4096x128x512 ![] bcast_S_S4096x128x512 (constant (F := Ideal) S_ .f32 0x358637BD#32)))
        (addf (subf
          (broadcastInDim S4096x128x512 ![0, 1, 2] bcast_S4096x128x1_S4096x128x512_0_1_2 (broadcastInDim S4096x128x1 ![0, 1] bcast_S4096x128_S4096x128x1_0_1 X))
          (broadcastInDim S4096x128x512 ![0, 1, 2] bcast_S1x128x512_S4096x128x512_0_1_2 (broadcastInDim S1x128x512 ![1, 2] bcast_S128x512_S1x128x512_1_2 Wt)))
          (broadcastInDim S4096x128x512 ![] bcast_S_S4096x128x512 (constant (F := Ideal) S_ .f32 0x358637BD#32))))
        (constant (F := Ideal) S_ .f32 0x00000000#32) reducesTo_S4096x128x512_S4096x512_d1 h_S_))
      = rscores X Wt := by
  funext i
  rw [negsqrt_sum]
  unfold rscores rscore
  refine congrArg (fun s => -(Ideal.sqrt (Z + s))) (Finset.sum_congr rfl fun d _ => ?_)
  exact summand X Wt _

/-- The log-softmax term is the row-wise log-softmax of Spec. -/
theorem logp_eq (x : FVec Ideal S4096x512 .f32) :
    subf (subf x (broadcastInDim S4096x512 ![0, 1] bcast_S4096x1_S4096x512_0_1 (broadcastInDim S4096x1 ![0] bcast_S4096_S4096x1_0
          (maximumf (broadcastInDim S4096 ![] bcast_S_S4096 (constant (F := Ideal) S_ .f32 0xFF800000#32))
            (Host.reduce FloatOps.maximumf x (constant (F := Ideal) S_ .f32 0xFF800000#32) reducesTo_S4096x512_S4096_d1 h_S_)))))
      (broadcastInDim S4096x512 ![0, 1] bcast_S4096x1_S4096x512_0_1 (Host.log (broadcastInDim S4096x1 ![0] bcast_S4096_S4096x1_0
          (Host.reduceAdd (Host.exp (subf x (broadcastInDim S4096x512 ![0, 1] bcast_S4096x1_S4096x512_0_1 (broadcastInDim S4096x1 ![0] bcast_S4096_S4096x1_0
            (maximumf (broadcastInDim S4096 ![] bcast_S_S4096 (constant (F := Ideal) S_ .f32 0xFF800000#32))
              (Host.reduce FloatOps.maximumf x (constant (F := Ideal) S_ .f32 0xFF800000#32) reducesTo_S4096x512_S4096_d1 h_S_))))))
            (constant (F := Ideal) S_ .f32 0x00000000#32) reducesTo_S4096x512_S4096_d1 h_S_))))
      = logp x := by
  funext i
  have hi : i = ix2 (rowOf i) (colOf i) := eq_ix2 i
  rw [hi]
  exact Cert.LibLogSoftmax.host_apply x reducesTo_S4096x512_S4096_d1 (by decide) h_S_ bcast_S_S4096 bcast_S4096_S4096x1_0
    bcast_S4096x1_S4096x512_0_1 (rowOf i) (colOf i)

end Cert.ReferenceIdeal.RefScores

end
-- ==== Proof.RefRun.lean ====
/-
  The direct program's run, read back. Its 56 host operations are taken in four stretches — the scores, the
  log-softmax of every row, the entry taken per row at the row's label, and the negated mean — and each stretch is
  read from whatever contents it finds, so that no term grows: the scores are the direct spelling of minus the
  distance, and the loss is minus the mean of the picked log-probabilities.
-/
import proofs.«108930_j68642167325149_2_alg».proof.Proof.Gen.ReferenceIdeal
import proofs.«108930_j68642167325149_2_alg».proof.Proof.Spec
import proofs.«108930_j68642167325149_2_alg».proof.Proof.LibStretch
import proofs.«108930_j68642167325149_2_alg».proof.Proof.RefScores
import Idealize.ShloMosaic.Lib.StableHlo.Run
import Idealize.ShloMosaic.Lib.Pipeline.Value
import Idealize.ShloMosaic.PureOps.Ideal.Laws

noncomputable section

namespace Cert.ReferenceIdeal.RefRun

open Cert.ReferenceIdeal Cert.ReferenceIdeal.Gen Idealize.ShloMosaic Idealize.ShloMosaic.TcCoe Idealize.SL.Sem
open Idealize.ShloMosaic.StableHlo Idealize.ShloMosaic.ValueIdx Cert.Spec Cert.LibStretch

variable {F : FTy → Type} [FloatOps F]

/-- The scores: 13 operations. -/
abbrev opsA : List (HloOp τ sig (Elt F)) :=
  [ unary main_arg0 main_v0 (broadcastInDim S4096x128x1 ![0, 1] bcast_S4096x128_S4096x128x1_0_1 : (⟨S4096x128, .f32⟩ : BufTy).Contents (Elt F) → (⟨S4096x128x1, .f32⟩ : BufTy).Contents (Elt F)),
    unary main_arg2 main_v1 (broadcastInDim S1x128x512 ![1, 2] bcast_S128x512_S1x128x512_1_2 : (⟨S128x512, .f32⟩ : BufTy).Contents (Elt F) → (⟨S1x128x512, .f32⟩ : BufTy).Contents (Elt F)),
    unary main_v0 main_v2 (broadcastInDim S4096x128x512 ![0, 1, 2] bcast_S4096x128x1_S4096x128x512_0_1_2 : (⟨S4096x128x1, .f32⟩ : BufTy).Contents (Elt F) → (⟨S4096x128x512, .f32⟩ : BufTy).Contents (Elt F)),
    unary main_v1 main_v3 (broadcastInDim S4096x128x512 ![0, 1, 2] bcast_S1x128x512_S4096x128x512_0_1_2 : (⟨S1x128x512, .f32⟩ : BufTy).Contents (Elt F) → (⟨S4096x128x512, .f32⟩ : BufTy).Contents (Elt F)),
    binary main_v2 main_v3 main_v4 (subf : (⟨S4096x128x512, .f32⟩ : BufTy).Contents (Elt F) → (⟨S4096x128x512, .f32⟩ : BufTy).Contents (Elt F) → (⟨S4096x128x512, .f32⟩ : BufTy).Contents (Elt F)),
    nullary main_cst (constant S_ .f32 0x358637BD#32),
    unary main_cst main_v5 (broadcastInDim S4096x128x512 ![] bcast_S_S4096x128x512 : (⟨S_, .f32⟩ : BufTy).Contents (Elt F) → (⟨S4096x128x512, .f32⟩ : BufTy).Contents (Elt F)),
    binary main_v4 main_v5 main_v6 (addf : (⟨S4096x128x512, .f32⟩ : BufTy).Contents (Elt F) → (⟨S4096x128x512, .f32⟩ : BufTy).Contents (Elt F) → (⟨S4096x128x512, .f32⟩ : BufTy).Contents (Elt F)),
    binary main_v6 main_v6 main_v7 (mulf : (⟨S4096x128x512, .f32⟩ : BufTy).Contents (Elt F) → (⟨S4096x128x512, .f32⟩ : BufTy).Contents (Elt F) → (⟨S4096x128x512, .f32⟩ : BufTy).Contents (Elt F)),
    nullary main_cst_0 (constant S_ .f32 0x00000000#32),
    binary main_v7 main_cst_0 main_v8 ((fun x v => Host.reduceAdd x v reducesTo_S4096x128x512_S4096x512_d1 h_S_) : (⟨S4096x128x512, .f32⟩ : BufTy).Contents (Elt F) → (⟨S_, .f32⟩ : BufTy).Contents (Elt F) → (⟨S4096x512, .f32⟩ : BufTy).Contents (Elt F)),
    unary main_v8 main_v9 (Host.sqrt : (⟨S4096x512, .f32⟩ : BufTy).Contents (Elt F) → (⟨S4096x512, .f32⟩ : BufTy).Contents (Elt F)),
    unary main_v9 main_v10 (Host.negf : (⟨S4096x512, .f32⟩ : BufTy).Contents (Elt F) → (⟨S4096x512, .f32⟩ : BufTy).Contents (Elt F)) ]

/-- The log-softmax of every row (the called function's operations in the call's place): 15 operations. -/
abbrev opsB : List (HloOp τ sig (Elt F)) :=
  [ TRef.nullary (TRef.of (T := ⟨S_, .f32⟩) main_call0_cst) (constant S_ .f32 0xFF800000#32),
    TRef.binary (TRef.of (T := ⟨S4096x512, .f32⟩) main_v10) (TRef.of (T := ⟨S_, .f32⟩) main_call0_cst) (TRef.of (T := ⟨S4096, .f32⟩) main_call0_v0) (fun x v => Host.reduce FloatOps.maximumf x v reducesTo_S4096x512_S4096_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S4096, .f32⟩) main_call0_v1) (broadcastInDim S4096 ![] bcast_S_S4096),
    TRef.binary (TRef.of (T := ⟨S4096, .f32⟩) main_call0_v1) (TRef.of (T := ⟨S4096, .f32⟩) main_call0_v0) (TRef.of (T := ⟨S4096, .f32⟩) main_call0_v2) maximumf,
    TRef.unary (TRef.of (T := ⟨S4096, .f32⟩) main_call0_v2) (TRef.of (T := ⟨S4096x1, .f32⟩) main_call0_v3) (broadcastInDim S4096x1 ![0] bcast_S4096_S4096x1_0),
    TRef.unary (TRef.of (T := ⟨S4096x1, .f32⟩) main_call0_v3) (TRef.of (T := ⟨S4096x512, .f32⟩) main_call0_v4) (broadcastInDim S4096x512 ![0, 1] bcast_S4096x1_S4096x512_0_1),
    TRef.binary (TRef.of (T := ⟨S4096x512, .f32⟩) main_v10) (TRef.of (T := ⟨S4096x512, .f32⟩) main_call0_v4) (TRef.of (T := ⟨S4096x512, .f32⟩) main_call0_v5) subf,
    TRef.unary (TRef.of (T := ⟨S4096x512, .f32⟩) main_call0_v5) (TRef.of (T := ⟨S4096x512, .f32⟩) main_call0_v6) Host.exp,
    TRef.nullary (TRef.of (T := ⟨S_, .f32⟩) main_call0_cst_1) (constant S_ .f32 0x00000000#32),
    TRef.binary (TRef.of (T := ⟨S4096x512, .f32⟩) main_call0_v6) (TRef.of (T := ⟨S_, .f32⟩) main_call0_cst_1) (TRef.of (T := ⟨S4096, .f32⟩) main_call0_v7) (fun x v => Host.reduceAdd x v reducesTo_S4096x512_S4096_d1 h_S_),
    TRef.unary (TRef.of (T := ⟨S4096, .f32⟩) main_call0_v7) (TRef.of (T := ⟨S4096x1, .f32⟩) main_call0_v8) (broadcastInDim S4096x1 ![0] bcast_S4096_S4096x1_0),
    TRef.unary (TRef.of (T := ⟨S4096x1, .f32⟩) main_call0_v8) (TRef.of (T := ⟨S4096x1, .f32⟩) main_call0_v9) Host.log,
    TRef.unary (TRef.of (T := ⟨S4096x1, .f32⟩) main_call0_v9) (TRef.of (T := ⟨S4096x512, .f32⟩) main_call0_v10) (broadcastInDim S4096x512 ![0, 1] bcast_S4096x1_S4096x512_0_1),
    TRef.binary (TRef.of (T := ⟨S4096x512, .f32⟩) main_call0_v5) (TRef.of (T := ⟨S4096x512, .f32⟩) main_call0_v10) (TRef.of (T := ⟨S4096x512, .f32⟩) main_v11) subf ]

/-- One entry per row at the row's label (the labels placed as a column, then the called function's operations): 23 operations. -/
abbrev opsC : List (HloOp τ sig (Elt F)) :=
  [ unary main_arg1 main_v12 (broadcastInDim S4096x1 ![0] bcast_S4096_S4096x1_0 : (⟨S4096, .i32⟩ : BufTy).Contents (Elt F) → (⟨S4096x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S4096x1, .i32⟩) main_call1_v0) (broadcastInDim S4096x1 ![] bcast_S_S4096x1),
    TRef.binary (TRef.of (T := ⟨S4096x1, .i32⟩) main_v12) (TRef.of (T := ⟨S4096x1, .i32⟩) main_call1_v0) (TRef.of (T := ⟨S4096x1, .i1⟩) main_call1_v1) (cmpi .slt),
    TRef.nullary (TRef.of (T := ⟨S_, .i32⟩) main_call1_c_0) (constantI S_ 32 512#32),
    TRef.unary (TRef.of (T := ⟨S_, .i32⟩) main_call1_c_0) (TRef.of (T := ⟨S4096x1, .i32⟩) main_call1_v2) (broadcastInDim S4096x1 ![] bcast_S_S4096x1),
    TRef.binary (TRef.of (T := ⟨S4096x1, .i32⟩) main_v12) (TRef.of (T := ⟨S4096x1, .i32⟩) main_call1_v2) (TRef.of (T := ⟨S4096x1, .i32⟩) main_call1_v3) addi,
    TRef.ternary (TRef.of (T := ⟨S4096x1, .i1⟩) main_call1_v1) (TRef.of (T := ⟨S4096x1, .i32⟩) main_call1_v3) (TRef.of (T := ⟨S4096x1, .i32⟩) main_v12) (TRef.of (T := ⟨S4096x1, .i32⟩) main_call1_v4) select,
    TRef.reshape (TRef.of (T := ⟨S4096x1, .i32⟩) main_call1_v4) (TRef.of (T := ⟨S4096x1x1, .i32⟩) main_call1_v5) rfl shapeCasts_S4096x1_S4096x1x1,
    TRef.nullary (TRef.of (T := ⟨S1, .i32⟩) main_call1_c_1) (constantI S1 32 511#32),
    TRef.nullary (TRef.of (T := ⟨S_, .i32⟩) main_call1_c_2) (constantI S_ 32 0#32),
    TRef.unary (TRef.of (T := ⟨S_, .i32⟩) main_call1_c_2) (TRef.of (T := ⟨S4096x1x1, .i32⟩) main_call1_v6) (broadcastInDim S4096x1x1 ![] bcast_S_S4096x1x1),
    TRef.binary (TRef.of (T := ⟨S4096x1x1, .i32⟩) main_call1_v5) (TRef.of (T := ⟨S4096x1x1, .i32⟩) main_call1_v6) (TRef.of (T := ⟨S4096x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S4096x1x1, .i32⟩) main_call1_v9) (broadcastInDim S4096x1x1 ![0, 1, 2] bcast_S1x1x1_S4096x1x1_0_1_2),
    TRef.binary (TRef.of (T := ⟨S4096x1x1, .i32⟩) main_call1_v5) (TRef.of (T := ⟨S4096x1x1, .i32⟩) main_call1_v9) (TRef.of (T := ⟨S4096x1x1, .i1⟩) main_call1_v10) (cmpi .sle),
    TRef.binary (TRef.of (T := ⟨S4096x1x1, .i1⟩) main_call1_v7) (TRef.of (T := ⟨S4096x1x1, .i1⟩) main_call1_v10) (TRef.of (T := ⟨S4096x1x1, .i1⟩) main_call1_v11) andi,
    TRef.nullary (TRef.of (T := ⟨S_, .i1⟩) main_call1_c_3) (constantI S_ 1 1#1),
    TRef.binary (TRef.of (T := ⟨S4096x1x1, .i1⟩) main_call1_v11) (TRef.of (T := ⟨S_, .i1⟩) main_call1_c_3) (TRef.of (T := ⟨S4096x1, .i1⟩) main_call1_v12) (fun x v => Host.reduce IntOp.andi x v reducesTo_S4096x1x1_S4096x1_d2 h_S_),
    TRef.binary (TRef.of (T := ⟨S4096x512, .f32⟩) main_v11) (TRef.of (T := ⟨S4096x1x1, .i32⟩) main_call1_v5) (TRef.of (T := ⟨S4096x1, .f32⟩) main_call1_v13) (fun x i => Host.gather gather_S4096x512_S4096x1x1_S4096x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S4096x1, .f32⟩) main_call1_v14) (broadcastInDim S4096x1 ![] bcast_S_S4096x1),
    TRef.ternary (TRef.of (T := ⟨S4096x1, .i1⟩) main_call1_v12) (TRef.of (T := ⟨S4096x1, .f32⟩) main_call1_v13) (TRef.of (T := ⟨S4096x1, .f32⟩) main_call1_v14) (TRef.of (T := ⟨S4096x1, .f32⟩) main_v13) select ]

/-- The negated mean: 5 operations. -/
abbrev opsD : List (HloOp τ sig (Elt F)) :=
  [ nullary main_cst_1 (constant S_ .f32 0x00000000#32),
    binary main_v13 main_cst_1 main_v14 ((fun x v => Host.reduceAdd x v reducesTo_S4096x1_S_d0_1 h_S_) : (⟨S4096x1, .f32⟩ : BufTy).Contents (Elt F) → (⟨S_, .f32⟩ : BufTy).Contents (Elt F) → (⟨S_, .f32⟩ : BufTy).Contents (Elt F)),
    nullary main_cst_2 (constant S_ .f32 0x45800000#32),
    binary main_v14 main_cst_2 main_v15 (Host.divf : (⟨S_, .f32⟩ : BufTy).Contents (Elt F) → (⟨S_, .f32⟩ : BufTy).Contents (Elt F) → (⟨S_, .f32⟩ : BufTy).Contents (Elt F)),
    unary main_v15 main_v16 (Host.negf : (⟨S_, .f32⟩ : BufTy).Contents (Elt F) → (⟨S_, .f32⟩ : BufTy).Contents (Elt F)) ]

/-- @main's operations, in order. -/
abbrev ops : List (HloOp τ sig (Elt F)) := opsA ++ (opsB ++ (opsC ++ opsD))

set_option maxRecDepth 16384 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨unary_bufs_sub .., unary_bufs_sub .., unary_bufs_sub .., unary_bufs_sub .., binary_bufs_sub .., nullary_bufs_sub .., unary_bufs_sub .., binary_bufs_sub .., binary_bufs_sub .., nullary_bufs_sub .., binary_bufs_sub .., unary_bufs_sub .., unary_bufs_sub ..⟩
theorem opsB_sub : (opsB : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩
theorem opsC_sub : (opsC : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩
theorem opsD_sub : (opsD : List (HloOp τ sig (Elt F))).Forall fun op => op.bufs ⊆ tcRefs τ sig :=
  ⟨nullary_bufs_sub .., binary_bufs_sub .., nullary_bufs_sub .., binary_bufs_sub .., unary_bufs_sub ..⟩

theorem ops_sub : (ops : List (HloOp τ sig (Elt F))).Forall fun op => op.bufs ⊆ tcRefs τ sig :=
  List.forall_iff_forall_mem.mpr fun op h => by
    rcases List.mem_append.mp h with h | h
    · exact List.forall_iff_forall_mem.mp opsA_sub op h
    rcases List.mem_append.mp h with h | h
    · exact List.forall_iff_forall_mem.mp opsB_sub op h
    rcases List.mem_append.mp h with h | h
    · exact List.forall_iff_forall_mem.mp opsC_sub op h
    · exact List.forall_iff_forall_mem.mp opsD_sub op h

theorem ops_fresh : ∀ op ∈ (ops : List (HloOp τ sig (Elt F))), op.fresh = ∅ := by
  intro _ h
  repeat (cases h with | head => rfl | tail _ h => ?_)
  exact nomatch h

/-! ## Each stretch read from the contents it finds (at the extended reals) -/

section Stretches
variable (W : Valuation τ sig (Elt Ideal))

theorem afterA_scores : (after opsA W (Proc.devRef .tc main_v10) : S4096x512.Idx → EReal)
    = Host.negf (Host.sqrt (Host.reduceAdd (mulf (addf (subf
          (broadcastInDim S4096x128x512 ![0, 1, 2] bcast_S4096x128x1_S4096x128x512_0_1_2 (broadcastInDim S4096x128x1 ![0, 1] bcast_S4096x128_S4096x128x1_0_1 (W (Proc.devRef .tc main_arg0))))
          (broadcastInDim S4096x128x512 ![0, 1, 2] bcast_S1x128x512_S4096x128x512_0_1_2 (broadcastInDim S1x128x512 ![1, 2] bcast_S128x512_S1x128x512_1_2 (W (Proc.devRef .tc main_arg2)))))
          (broadcastInDim S4096x128x512 ![] bcast_S_S4096x128x512 (constant (F := Ideal) S_ .f32 0x358637BD#32)))
        (addf (subf
          (broadcastInDim S4096x128x512 ![0, 1, 2] bcast_S4096x128x1_S4096x128x512_0_1_2 (broadcastInDim S4096x128x1 ![0, 1] bcast_S4096x128_S4096x128x1_0_1 (W (Proc.devRef .tc main_arg0))))
          (broadcastInDim S4096x128x512 ![0, 1, 2] bcast_S1x128x512_S4096x128x512_0_1_2 (broadcastInDim S1x128x512 ![1, 2] bcast_S128x512_S1x128x512_1_2 (W (Proc.devRef .tc main_arg2)))))
          (broadcastInDim S4096x128x512 ![] bcast_S_S4096x128x512 (constant (F := Ideal) S_ .f32 0x358637BD#32))))
        (constant (F := Ideal) S_ .f32 0x00000000#32) reducesTo_S4096x128x512_S4096x512_d1 h_S_)) := by
  after_results

theorem afterA_arg1 : after opsA W (Proc.devRef .tc main_arg1) = W (Proc.devRef .tc main_arg1) := by
  after_results

/-- The log-softmax stretch, from the scores it finds. -/
theorem afterB_logp : (after opsB W (Proc.devRef .tc main_v11) : S4096x512.Idx → EReal)
    = subf (subf (W (Proc.devRef .tc main_v10)) (broadcastInDim S4096x512 ![0, 1] bcast_S4096x1_S4096x512_0_1 (broadcastInDim S4096x1 ![0] bcast_S4096_S4096x1_0
          (maximumf (broadcastInDim S4096 ![] bcast_S_S4096 (constant (F := Ideal) S_ .f32 0xFF800000#32))
            (Host.reduce FloatOps.maximumf (W (Proc.devRef .tc main_v10)) (constant (F := Ideal) S_ .f32 0xFF800000#32) reducesTo_S4096x512_S4096_d1 h_S_)))))
      (broadcastInDim S4096x512 ![0, 1] bcast_S4096x1_S4096x512_0_1 (Host.log (broadcastInDim S4096x1 ![0] bcast_S4096_S4096x1_0
          (Host.reduceAdd (Host.exp (subf (W (Proc.devRef .tc main_v10)) (broadcastInDim S4096x512 ![0, 1] bcast_S4096x1_S4096x512_0_1 (broadcastInDim S4096x1 ![0] bcast_S4096_S4096x1_0
            (maximumf (broadcastInDim S4096 ![] bcast_S_S4096 (constant (F := Ideal) S_ .f32 0xFF800000#32))
              (Host.reduce FloatOps.maximumf (W (Proc.devRef .tc main_v10)) (constant (F := Ideal) S_ .f32 0xFF800000#32) reducesTo_S4096x512_S4096_d1 h_S_))))))
            (constant (F := Ideal) S_ .f32 0x00000000#32) reducesTo_S4096x512_S4096_d1 h_S_)))) := by
  after_results_simp <;> (try simp only [ofBuf_toBuf]) <;> rfl

theorem afterB_arg1 : after opsB W (Proc.devRef .tc main_arg1) = W (Proc.devRef .tc main_arg1) := by
  after_results_simp <;> (try simp only [ofBuf_toBuf]) <;> rfl
theorem afterB_scores : after opsB W (Proc.devRef .tc main_v10) = W (Proc.devRef .tc main_v10) := by
  after_results_simp <;> (try simp only [ofBuf_toBuf]) <;> rfl

/-- The pick stretch, from the labels and the log-probabilities it finds. -/
theorem afterC_pick : (after opsC W (Proc.devRef .tc main_v13) : S4096x1.Idx → EReal)
    = pick (W (Proc.devRef .tc main_arg1)) (W (Proc.devRef .tc main_v11)) := by
  after_results_simp <;> (try simp only [ofBuf_toBuf]) <;> rfl

theorem afterC_scores : after opsC W (Proc.devRef .tc main_v10) = W (Proc.devRef .tc main_v10) := by
  after_results_simp <;> (try simp only [ofBuf_toBuf]) <;> rfl

/-- The mean stretch, from the picked entries it finds. -/
theorem afterD_loss : (after opsD W (Proc.devRef .tc main_v16) : S_.Idx → EReal)
    = Host.negf (Host.divf (Host.reduceAdd (W (Proc.devRef .tc main_v13)) (constant (F := Ideal) S_ .f32 0x00000000#32) reducesTo_S4096x1_S_d0_1 h_S_)
        (constant (F := Ideal) S_ .f32 0x45800000#32)) := by
  after_results_simp <;> (try simp only [ofBuf_toBuf]) <;> rfl

theorem afterD_scores : after opsD W (Proc.devRef .tc main_v10) = W (Proc.devRef .tc main_v10) := by
  after_results_simp <;> (try simp only [ofBuf_toBuf]) <;> rfl

theorem afterA_arg0 : after opsA W (Proc.devRef .tc main_arg0) = W (Proc.devRef .tc main_arg0) := by
  after_results
theorem afterA_arg2 : after opsA W (Proc.devRef .tc main_arg2) = W (Proc.devRef .tc main_arg2) := by
  after_results
theorem afterB_arg0 : after opsB W (Proc.devRef .tc main_arg0) = W (Proc.devRef .tc main_arg0) := by
  after_results_simp <;> (try simp only [ofBuf_toBuf]) <;> rfl
theorem afterB_arg2 : after opsB W (Proc.devRef .tc main_arg2) = W (Proc.devRef .tc main_arg2) := by
  after_results_simp <;> (try simp only [ofBuf_toBuf]) <;> rfl
theorem afterC_arg0 : after opsC W (Proc.devRef .tc main_arg0) = W (Proc.devRef .tc main_arg0) := by
  after_results_simp <;> (try simp only [ofBuf_toBuf]) <;> rfl
theorem afterC_arg1 : after opsC W (Proc.devRef .tc main_arg1) = W (Proc.devRef .tc main_arg1) := by
  after_results_simp <;> (try simp only [ofBuf_toBuf]) <;> rfl
theorem afterC_arg2 : after opsC W (Proc.devRef .tc main_arg2) = W (Proc.devRef .tc main_arg2) := by
  after_results_simp <;> (try simp only [ofBuf_toBuf]) <;> rfl
theorem afterD_arg0 : after opsD W (Proc.devRef .tc main_arg0) = W (Proc.devRef .tc main_arg0) := by
  after_results
theorem afterD_arg1 : after opsD W (Proc.devRef .tc main_arg1) = W (Proc.devRef .tc main_arg1) := by
  after_results
theorem afterD_arg2 : after opsD W (Proc.devRef .tc main_arg2) = W (Proc.devRef .tc main_arg2) := by
  after_results

/-- The whole line as its four stretches. -/
theorem ops_split (b : DevRef τ sig) :
    after (ops (F := Ideal)) W b = after opsD (after opsC (after opsB (after opsA W))) b := by
  show after (opsA ++ (opsB ++ (opsC ++ opsD))) W b = _
  rw [StableHlo.after_append, StableHlo.after_append, StableHlo.after_append]

/-- The first result: the scores in the direct spelling. -/
theorem res_scores : (after (ops (F := Ideal)) W (Proc.devRef .tc main_v10) : S4096x512.Idx → EReal)
    = rscores (W (Proc.devRef .tc main_arg0)) (W (Proc.devRef .tc main_arg2)) := by
  rw [ops_split, afterD_scores, afterC_scores, afterB_scores, afterA_scores]
  exact RefScores.scores_eq _ _

/-- The second result: minus the mean of the picked log-probabilities of those scores. -/
theorem res_loss : (after (ops (F := Ideal)) W (Proc.devRef .tc main_v16) : S_.Idx → EReal)
    = rloss (W (Proc.devRef .tc main_arg1)) (logp (rscores (W (Proc.devRef .tc main_arg0)) (W (Proc.devRef .tc main_arg2)))) := by
  rw [ops_split, afterD_loss, afterC_pick, afterB_logp, afterB_arg1, afterA_arg1, afterA_scores, RefScores.scores_eq,
    RefScores.logp_eq]
  rfl

theorem res_arg0 : after (ops (F := Ideal)) W (Proc.devRef .tc main_arg0) = W (Proc.devRef .tc main_arg0) := by
  rw [ops_split, afterD_arg0, afterC_arg0, afterB_arg0, afterA_arg0]
theorem res_arg1 : after (ops (F := Ideal)) W (Proc.devRef .tc main_arg1) = W (Proc.devRef .tc main_arg1) := by
  rw [ops_split, afterD_arg1, afterC_arg1, afterB_arg1, afterA_arg1]
theorem res_arg2 : after (ops (F := Ideal)) W (Proc.devRef .tc main_arg2) = W (Proc.devRef .tc main_arg2) := by
  rw [ops_split, afterD_arg2, afterC_arg2, afterB_arg2, afterA_arg2]

end Stretches

/-! ## The run -/

/-- Every weakly fair execution of the direct program terminates with the scores in the direct spelling, the loss as
    minus the mean of the picked log-probabilities, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v10)
        = rscores (m ((c.tc : Thread nD τ).loc main_arg0)) (m ((c.tc : Thread nD τ).loc main_arg2))
      ∧ r.2.mem ((c.tc : Thread nD τ).loc main_v16)
        = rloss (m ((c.tc : Thread nD τ).loc main_arg1))
            (logp (rscores (m ((c.tc : Thread nD τ).loc main_arg0)) (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v10).trans (res_scores _), (h c main_v16).trans (res_loss _),
      (h c main_arg0).trans (res_arg0 _), (h c main_arg1).trans (res_arg1 _), (h c main_arg2).trans (res_arg2 _)⟩)
    (run_seq scopedRefs_eq scopedSems_eq defs main (fun _ => ops) main_eq (fun _ => ops_sub) m ρ (fun _ => ops_fresh))

end Cert.ReferenceIdeal.RefRun

end
-- ==== Proof.Finite.lean ====
/-
  From the precondition to real entries. The precondition says that the conjunction, over all entries of the two float
  inputs, of |v| < +∞ is true; a conjunction over an array is true only if every entry's test is, and an extended
  real whose absolute value is below +∞ is neither infinity: it is a real number.
-/
import proofs.«108930_j68642167325149_2_alg».proof.Pre_finite_inputs
import proofs.«108930_j68642167325149_2_alg».proof.Proof.Consts
import Idealize.ShloMosaic.Lib.ReduceAll
import Idealize.ShloMosaic.Lib.Affine
import Idealize.ShloMosaic.Lib.ValueIdx
import Idealize.ShloMosaic.PureOps.Ideal.Laws

noncomputable section

namespace Cert.Finite

open Idealize.ShloMosaic Cert.Pre_finite_inputs

instance : Subsingleton S_.Idx := ⟨fun _ _ => funext fun d => d.elim0⟩

/-- An extended real whose absolute value is below plus infinity is a real. -/
theorem real_of_abs_lt (x : EReal) (h : Ideal.cmp .olt (max x (-x)) (Ideal.ofBits .f32 0x7F800000#32) = 1#1) :
    ∃ r : ℝ, x = (r : EReal) := by
  rw [Consts.ofBits_posInf] at h
  induction x using EReal.rec
  · exfalso; revert h; simp [Ideal.cmp]
  · exact ⟨_, rfl⟩
  · exfalso; revert h; simp [Ideal.cmp]

/-- Under the precondition every entry of both float inputs is a real. -/
theorem finite_of_pre [Cert.Pre_finite_inputs.Facts] (x : FVec Ideal S4096x128 .f32) (l : IVec S4096 32)
    (w : FVec Ideal S128x512 .f32) (h : Cert.Pre_finite_inputs.fn (F := Ideal) x l w = fun _ => 1#1) :
    (∀ i, ∃ r : ℝ, x i = (r : EReal)) ∧ (∀ i, ∃ r : ℝ, w i = (r : EReal)) := by
  have h0 := congrFun h ValueIdx.ix0
  dsimp only [Cert.Pre_finite_inputs.fn] at h0
  obtain ⟨hx, hw⟩ := IntOp.andi_eq_one.mp h0
  exact ⟨fun i => real_of_abs_lt _ (Host.reduce_andi_all _ _ _ _ _ hx i),
    fun i => real_of_abs_lt _ (Host.reduce_andi_all _ _ _ _ _ hw i)⟩

end Cert.Finite

end
-- ==== Proof.lean ====
/-
  The certificate: a kernel computing minus the Euclidean distance of every (shifted) input row to every prototype
  column through the expansion Σa² - 2 a·w + Σw² clamped at zero, then a cross-entropy over those scores, against the
  reference that forms the differences directly and goes through a row-wise log-softmax.

  The three frames: the two kernel programs' are the generated frame runs; the reference's is its run read back with
  the results dropped. Nothing was rewritten when the kernel was idealized, so that conjunct is trivial. The two
  idealized programs end with equal results on every finite input: the precondition makes every input entry a real
  number, on real data the expanded spelling of a score is the direct one, the scores are then reals, and on real
  scores the mean of (row maximum + log-sum - picked score) is minus the mean of the picked log-probabilities, an
  out-of-range label turning both into plus infinity.
-/
import proofs.«108930_j68642167325149_2_alg».proof.Defs
import proofs.«108930_j68642167325149_2_alg».proof.Proof.Gen.Kernel
import proofs.«108930_j68642167325149_2_alg».proof.Proof.Gen.Kernel.Skeleton
import proofs.«108930_j68642167325149_2_alg».proof.Proof.Gen.Kernel.Launch
import proofs.«108930_j68642167325149_2_alg».proof.Proof.Gen.Kernel.Points
import proofs.«108930_j68642167325149_2_alg».proof.Proof.Gen.Kernel.Frame
import proofs.«108930_j68642167325149_2_alg».proof.Proof.Gen.KernelIdeal
import proofs.«108930_j68642167325149_2_alg».proof.Proof.Gen.KernelIdeal.Skeleton
import proofs.«108930_j68642167325149_2_alg».proof.Proof.Gen.KernelIdeal.Launch
import proofs.«108930_j68642167325149_2_alg».proof.Proof.Gen.KernelIdeal.Points
import proofs.«108930_j68642167325149_2_alg».proof.Proof.Gen.KernelIdeal.Frame
import proofs.«108930_j68642167325149_2_alg».proof.Proof.Gen.ReferenceIdeal
import proofs.«108930_j68642167325149_2_alg».proof.Proof.Gen.Pre_finite_inputs
import proofs.«108930_j68642167325149_2_alg».proof.Proof.KernelRun
import proofs.«108930_j68642167325149_2_alg».proof.Proof.RefRun
import proofs.«108930_j68642167325149_2_alg».proof.Proof.Finite
import Idealize.ShloMosaic.Adequacy
import Idealize.ShloMosaic.Init

noncomputable section

namespace Cert.Proof

open Idealize.ShloMosaic Idealize.SL.Sem Cert.Spec

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.RefRun.run m ρ)

/-- The two idealized programs end with equal results on finite inputs. -/
theorem algebraic : Cert.algebraic_KernelIdeal_ReferenceIdeal := by
  intro m ρ m' ρ' hpre hagree
  refine ⟨_, _, Cert.KernelIdeal.Run.run m ρ, ?_⟩
  refine (θ_run Cert.ReferenceIdeal.defs _ _).mono (fun _ h c => ?_) (Cert.ReferenceIdeal.RefRun.run m' ρ')
  obtain ⟨hx, hw⟩ := Cert.Finite.finite_of_pre _ _ _ (hpre c)
  obtain ⟨a0, a1, a2⟩ := hagree c
  refine ⟨(h c).1.trans ?_, (h c).2.1.trans ?_, (h c).2.2⟩
  · rw [a0, a2]
    exact (kscores_eq _ _ hx hw).symm
  · rw [a0, a1, a2, kscores_eq _ _ hx hw]
    exact (kloss_eq _ _ (rscores_real _ _ hx hw)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
